-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x40960 : Shape := ⟨2, ![4096, 40960]⟩
abbrev S4096x1 : Shape := ⟨2, ![4096, 1]⟩
abbrev S1024x40960 : Shape := ⟨2, ![1024, 40960]⟩
abbrev S1024 : Shape := ⟨1, ![1024]⟩
abbrev S64x2048 : Shape := ⟨2, ![64, 2048]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S4096x40960 : S_.BroadcastsInDim S4096x40960 (![] : Fin 0 → Fin S4096x40960.rank)
  reducesTo_S4096x40960_S_d0_1 : S4096x40960.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S1024x40960 : S_.BroadcastsInDim S1024x40960 (![] : Fin 0 → Fin S1024x40960.rank)
  reducesTo_S1024x40960_S_d0_1 : S1024x40960.ReducesTo [0, 1] S_
  bcast_S_S1024 : S_.BroadcastsInDim S1024 (![] : Fin 0 → Fin S1024.rank)
  reducesTo_S1024_S_d0 : S1024.ReducesTo [0] S_
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S32x64 .f32) (main_arg8 : FVec F S32 .f32) (main_arg9 : FVec F S1x32 .f32) (main_arg10 : FVec F S1 .f32) (main_v33 : IVec S_ 1) : IVec S_ 1 :=
  let main_v34 : FVec F S32x64 .f32 := Host.absf main_arg7
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S1x32 .f32 := Host.absf main_arg9
  let main_cst_16 : FVec F S_ .f32 := constant S_ .f32 0x7F800000#32
  let main_v45 : FVec F S1x32 .f32 := broadcastInDim S1x32 ![] bcast_S_S1x32 main_cst_16
  let main_v46 : IVec S1x32 1 := cmpf .olt main_v44 main_v45
  let main_c_17 : IVec S_ 1 := constantI S_ 1 1#1
  let main_v47 : IVec S_ 1 := (fun x v => Host.reduce IntOp.andi x v reducesTo_S1x32_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S1024 .f32) (main_arg5 : FVec F S64x2048 .f32) (main_arg6 : FVec F S64 .f32) (main_arg7 : FVec F S32x64 .f32) (main_arg8 : FVec F S32 .f32) (main_arg9 : FVec F S1x32 .f32) (main_arg10 : FVec F S1 .f32) (main_v13 : IVec S_ 1) (main_v16 : IVec S1024x40960 1) : IVec S_ 1 :=
  let main_c_5 : IVec S_ 1 := constantI S_ 1 1#1
  let main_v17 : IVec S_ 1 := (fun x v => Host.reduce IntOp.andi x v reducesTo_S1024x40960_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S64x2048 .f32 := Host.absf main_arg5
  let main_cst_8 : FVec F S_ .f32 := constant S_ .f32 0x7F800000#32
  let main_v25 : FVec F S64x2048 .f32 := broadcastInDim S64x2048 ![] bcast_S_S64x2048 main_cst_8
  let main_v26 : IVec S64x2048 1 := cmpf .olt main_v24 main_v25
  let main_c_9 : IVec S_ 1 := constantI S_ 1 1#1
  let main_v27 : IVec S_ 1 := (fun x v => Host.reduce IntOp.andi x v reducesTo_S64x2048_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x40960 .f32) (main_arg1 : FVec F S4096x40960 .f32) (main_arg2 : FVec F S4096x1 .f32) (main_arg3 : FVec F S1024x40960 .f32) (main_arg4 : FVec F S1024 .f32) (main_arg5 : FVec F S64x2048 .f32) (main_arg6 : FVec F S64 .f32) (main_arg7 : FVec F S32x64 .f32) (main_arg8 : FVec F S32 .f32) (main_arg9 : FVec F S1x32 .f32) (main_arg10 : FVec F S1 .f32) : IVec S_ 1 :=
  let main_v0 : FVec F S4096x40960 .f32 := Host.absf main_arg0
  let main_cst : FVec F S_ .f32 := constant S_ .f32 0x7F800000#32
  let main_v1 : FVec F S4096x40960 .f32 := broadcastInDim S4096x40960 ![] bcast_S_S4096x40960 main_cst
  let main_v2 : IVec S4096x40960 1 := cmpf .olt main_v0 main_v1
  let main_c : IVec S_ 1 := constantI S_ 1 1#1
  let main_v3 : IVec S_ 1 := (fun x v => Host.reduce IntOp.andi x v reducesTo_S4096x40960_S_d0_1 h_S_) main_v2 main_c
  let main_v4 : FVec F S4096x40960 .f32 := Host.absf main_arg1
  let main_cst_0 : FVec F S_ .f32 := constant S_ .f32 0x7F800000#32
  let main_v5 : FVec F S4096x40960 .f32 := broadcastInDim S4096x40960 ![] bcast_S_S4096x40960 main_cst_0
  let main_v6 : IVec S4096x40960 1 := cmpf .olt main_v4 main_v5
  let main_c_1 : IVec S_ 1 := constantI S_ 1 1#1
  let main_v7 : IVec S_ 1 := (fun x v => Host.reduce IntOp.andi x v reducesTo_S4096x40960_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S1024x40960 .f32 := Host.absf main_arg3
  let main_cst_4 : FVec F S_ .f32 := constant S_ .f32 0x7F800000#32
  let main_v15 : FVec F S1024x40960 .f32 := broadcastInDim S1024x40960 ![] bcast_S_S1024x40960 main_cst_4
  let main_v16 : IVec S1024x40960 1 := cmpf .olt main_v14 main_v15
  fn_part1 (F := F) main_arg4 main_arg5 main_arg6 main_arg7 main_arg8 main_arg9 main_arg10 main_v13 main_v16
-- ==== Kernel.lean ====
abbrev S4096x40960 : Shape := ⟨2, ![4096, 40960]⟩
abbrev S4096x1 : Shape := ⟨2, ![4096, 1]⟩
abbrev S1024x40960 : Shape := ⟨2, ![1024, 40960]⟩
abbrev S1024 : Shape := ⟨1, ![1024]⟩
abbrev S64x2048 : Shape := ⟨2, ![64, 2048]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x1024 : Shape := ⟨2, ![1, 1024]⟩
abbrev S4096x1024 : Shape := ⟨2, ![4096, 1024]⟩
abbrev S4096x512 : Shape := ⟨2, ![4096, 512]⟩
abbrev S1024x512 : Shape := ⟨2, ![1024, 512]⟩
abbrev S64x1024 : Shape := ⟨2, ![64, 1024]⟩
abbrev S1x64 : Shape := ⟨2, ![1, 64]⟩
abbrev S1x1 : Shape := ⟨2, ![1, 1]⟩
abbrev S1024x1024 : Shape := ⟨2, ![1024, 1024]⟩
abbrev S1024x1 : Shape := ⟨2, ![1024, 1]⟩
abbrev S1024x64 : Shape := ⟨2, ![1024, 64]⟩
abbrev S1024x32 : Shape := ⟨2, ![1024, 32]⟩

abbrev nBuf : Space → Nat
  | .hbm => 21
  | .vmem => 29
  | .smem => 0
  | _ => 0

abbrev bufTy : (tb : Table) → Fin (tcTables nBuf tb) → BufTy
  | .hbm, ⟨0, _⟩ => ⟨S4096x40960, .f32⟩
  | .hbm, ⟨1, _⟩ => ⟨S4096x40960, .f32⟩
  | .hbm, ⟨2, _⟩ => ⟨S4096x1, .f32⟩
  | .hbm, ⟨3, _⟩ => ⟨S1024x40960, .f32⟩
  | .hbm, ⟨4, _⟩ => ⟨S1024, .f32⟩
  | .hbm, ⟨5, _⟩ => ⟨S64x2048, .f32⟩
  | .hbm, ⟨6, _⟩ => ⟨S64, .f32⟩
  | .hbm, ⟨7, _⟩ => ⟨S32x64, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S64x1024, .f32⟩
  | .hbm, ⟨15, _⟩ => ⟨S64x1024, .f32⟩
  | .hbm, ⟨16, _⟩ => ⟨S1x64, .f32⟩
  | .hbm, ⟨17, _⟩ => ⟨S1x32, .f32⟩
  | .hbm, ⟨18, _⟩ => ⟨S1x1, .f32⟩
  | .hbm, ⟨19, _⟩ => ⟨S4096x1, .f32⟩
  | .hbm, ⟨20, _⟩ => ⟨S4096x1, .f32⟩
  | .local _ .vmem, ⟨0, _⟩ => ⟨S4096x512, .f32⟩
  | .local _ .vmem, ⟨1, _⟩ => ⟨S4096x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S4096x1024, .f32⟩
  | .local _ .vmem, ⟨6, _⟩ => ⟨S4096x512, .f32⟩
  | .local _ .vmem, ⟨7, _⟩ => ⟨S4096x512, .f32⟩
  | .local _ .vmem, ⟨8, _⟩ => ⟨S1024x512, .f32⟩
  | .local _ .vmem, ⟨9, _⟩ => ⟨S1024x512, .f32⟩
  | .local _ .vmem, ⟨10, _⟩ => ⟨S1x1024, .f32⟩
  | .local _ .vmem, ⟨11, _⟩ => ⟨S4096x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1, .f32⟩
  | .local _ .vmem, ⟨17, _⟩ => ⟨S1024x1, .f32⟩
  | .local _ .vmem, ⟨18, _⟩ => ⟨S64x1024, .f32⟩
  | .local _ .vmem, ⟨19, _⟩ => ⟨S64x1024, .f32⟩
  | .local _ .vmem, ⟨20, _⟩ => ⟨S1x64, .f32⟩
  | .local _ .vmem, ⟨21, _⟩ => ⟨S32x64, .f32⟩
  | .local _ .vmem, ⟨22, _⟩ => ⟨S1x32, .f32⟩
  | .local _ .vmem, ⟨23, _⟩ => ⟨S1x32, .f32⟩
  | .local _ .vmem, ⟨24, _⟩ => ⟨S1x1, .f32⟩
  | .local _ .vmem, ⟨25, _⟩ => ⟨S1024x1, .f32⟩
  | .local _ .vmem, ⟨26, _⟩ => ⟨S1024x1, .f32⟩
  | .local _ .vmem, ⟨27, _⟩ => ⟨S1024x1, .f32⟩
  | .local _ .vmem, ⟨28, _⟩ => ⟨S1024x1, .f32⟩
  | _, _ => ⟨S4096x40960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg10_0 : Ref sig .tc := ⟨.vmem, 25, rfl⟩
abbrev cc2_stg10_1 : Ref sig .tc := ⟨.vmem, 26, rfl⟩
abbrev cc2_stg11_0 : Ref sig .tc := ⟨.vmem, 27, rfl⟩
abbrev cc2_stg11_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem10_0 : DmaSem sig := 25
abbrev cc2_sem10_1 : DmaSem sig := 26
abbrev cc2_sem11_0 : DmaSem sig := 27
abbrev cc2_sem11_1 : DmaSem sig := 28

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S1024x1 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S1024x1 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  shapeCasts_S1024_S1x1024 : S1024.ShapeCasts S1x1024
  inb_S4096x1024_S4096x1024_0_0 : ∀ a, (![0, 0] : Fin 2 → Nat) a + S4096x1024.size a ≤ S4096x1024.size a
  h_S4096x1024 : 0 < S4096x1024.numel
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S4096x1024 : S1x1024.Broadcasts S4096x1024
  slices_S64x2048_S64x1024_0_0 : S64x2048.Slices ![0, 0] S64x1024
  slices_S64x2048_S64x1024_0_1024 : S64x2048.Slices ![0, 1024] S64x1024
  shapeCasts_S64_S1x64 : S64.ShapeCasts S1x64
  shapeCasts_S32_S1x32 : S32.ShapeCasts S1x32
  shapeCasts_S1_S1x1 : S1.ShapeCasts S1x1
  inb_S1024x1_S1024x1_0_0 : ∀ a, (![0, 0] : Fin 2 → Nat) a + S1024x1.size a ≤ S1024x1.size a
  h_S1024x1 : 0 < S1024x1.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1024x1_S1024x1024 : S1024x1.Broadcasts S1024x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S32x64_S32x64_0_0 : ∀ a, (![0, 0] : Fin 2 → Nat) a + S32x64.size a ≤ S32x64.size a
  h_S32x64 : 0 < S32x64.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  reduces_S1024x32_S1024 : S1024x32.Reduces [1] S1024
  shapeCasts_S1024_S1024x1 : S1024.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  dot_S4096x512_S1024x512_S4096x1024_1_1_0_0_n_n_wf : DotDims.WF S4096x512 S1024x512 S4096x1024 [1] [1] [0] [0] [] []
  dot_S1024x1024_S64x1024_S1024x64_1_1_0_0_n_n_wf : DotDims.WF S1024x1024 S64x1024 S1024x64 [1] [1] [0] [0] [] []
  dot_S1024x64_S32x64_S1024x32_1_1_0_0_n_n_wf : DotDims.WF S1024x64 S32x64 S1024x32 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x40960.size a
  hwx0_0 : ∀ i : grid0.Coords, EltTy.bits .f32 = 32 ∨ (Rect.block (s := S4096x40960) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x40960.size a
  hwx0_1 : ∀ i : grid0.Coords, EltTy.bits .f32 = 32 ∨ (Rect.block (s := S1024x40960) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .f32 = 32 ∨ (Rect.block (s := S4096x1024) S4096x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x512.size a ≤ S4096x40960.size a
  hwx1_0 : ∀ i : grid1.Coords, EltTy.bits .f32 = 32 ∨ (Rect.block (s := S4096x40960) S4096x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x40960.size a
  hwx1_1 : ∀ i : grid1.Coords, EltTy.bits .f32 = 32 ∨ (Rect.block (s := S1024x40960) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x1024.size a ≤ S4096x1024.size a
  hwx1_3 : ∀ i : grid1.Coords, EltTy.bits .f32 = 32 ∨ (Rect.block (s := S4096x1024) S4096x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x1024.size a
  hwx2_1 : ∀ i : grid2.Coords, EltTy.bits .f32 = 32 ∨ (Rect.block (s := S4096x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S4096x1.size a
  hwx2_2 : ∀ i : grid2.Coords, EltTy.bits .f32 = 32 ∨ (Rect.block (s := S4096x1) S1024x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1024.size a ≤ S64x1024.size a
  hwx2_3 : ∀ i : grid2.Coords, EltTy.bits .f32 = 32 ∨ (Rect.block (s := S64x1024) S64x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x1024.size a ≤ S64x1024.size a
  hwx2_4 : ∀ i : grid2.Coords, EltTy.bits .f32 = 32 ∨ (Rect.block (s := S64x1024) S64x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x64.size a ≤ S32x64.size a
  hwx2_6 : ∀ i : grid2.Coords, EltTy.bits .f32 = 32 ∨ (Rect.block (s := S32x64) S32x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x32.size a ≤ S1x32.size a
  hwx2_8 : ∀ i : grid2.Coords, EltTy.bits .f32 = 32 ∨ (Rect.block (s := S1x32) S1x32.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1.size a ≤ S1x1.size a
  hwx2_9 : ∀ i : grid2.Coords, EltTy.bits .f32 = 32 ∨ (Rect.block (s := S1x1) S1x1.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S1024x1.size a ≤ S4096x1.size a
  hwx2_10 : ∀ i : grid2.Coords, EltTy.bits .f32 = 32 ∨ (Rect.block (s := S4096x1) S1024x1.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S1024x1.size a ≤ S4096x1.size a
  hwx2_11 : ∀ i : grid2.Coords, EltTy.bits .f32 = 32 ∨ (Rect.block (s := S4096x1) S1024x1.size (cc2_transform_11 i) (hinb2_11 i)).WholeWords (EltTy.packing .f32)

variable [Facts₀]

def dot_S4096x512_S1024x512_S4096x1024_1_1_0_0_n_n : DotDims S4096x512 S1024x512 S4096x1024 where
  lhsContracting := [1]
  rhsContracting := [1]
  lhsNonContracting := [0]
  rhsNonContracting := [0]
  lhsBatch := []
  rhsBatch := []
  wf := dot_S4096x512_S1024x512_S4096x1024_1_1_0_0_n_n_wf
def dot_S1024x1024_S64x1024_S1024x64_1_1_0_0_n_n : DotDims S1024x1024 S64x1024 S1024x64 where
  lhsContracting := [1]
  rhsContracting := [1]
  lhsNonContracting := [0]
  rhsNonContracting := [0]
  lhsBatch := []
  rhsBatch := []
  wf := dot_S1024x1024_S64x1024_S1024x64_1_1_0_0_n_n_wf
def dot_S1024x64_S32x64_S1024x32_1_1_0_0_n_n : DotDims S1024x64 S32x64 S1024x32 where
  lhsContracting := [1]
  rhsContracting := [1]
  lhsNonContracting := [0]
  rhsNonContracting := [0]
  lhsBatch := []
  rhsBatch := []
  wf := dot_S1024x64_S32x64_S1024x32_1_1_0_0_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4096x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S4096x1024.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S64x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S64x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg7) S32x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v6) S1x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg9) S1x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v7) S1x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v8_0) S1024x1.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v8_1) S1024x1.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S4096x40960 : Shape := ⟨2, ![4096, 40960]⟩
abbrev S4096x1 : Shape := ⟨2, ![4096, 1]⟩
abbrev S1024x40960 : Shape := ⟨2, ![1024, 40960]⟩
abbrev S1024 : Shape := ⟨1, ![1024]⟩
abbrev S64x2048 : Shape := ⟨2, ![64, 2048]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S40960x1024 : Shape := ⟨2, ![40960, 1024]⟩
abbrev S4096x1024 : Shape := ⟨2, ![4096, 1024]⟩
abbrev S1x1024 : Shape := ⟨2, ![1, 1024]⟩
abbrev S4096x2048 : Shape := ⟨2, ![4096, 2048]⟩
abbrev S_ : Shape := ⟨0, ![]⟩
abbrev S2048x64 : Shape := ⟨2, ![2048, 64]⟩
abbrev S4096x64 : Shape := ⟨2, ![4096, 64]⟩
abbrev S1x64 : Shape := ⟨2, ![1, 64]⟩
abbrev S64x32 : Shape := ⟨2, ![64, 32]⟩
abbrev S4096x32 : Shape := ⟨2, ![4096, 32]⟩
abbrev S32x1 : Shape := ⟨2, ![32, 1]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S4096x40960, .f32⟩
  | .hbm, ⟨1, _⟩ => ⟨S4096x40960, .f32⟩
  | .hbm, ⟨2, _⟩ => ⟨S4096x1, .f32⟩
  | .hbm, ⟨3, _⟩ => ⟨S1024x40960, .f32⟩
  | .hbm, ⟨4, _⟩ => ⟨S1024, .f32⟩
  | .hbm, ⟨5, _⟩ => ⟨S64x2048, .f32⟩
  | .hbm, ⟨6, _⟩ => ⟨S64, .f32⟩
  | .hbm, ⟨7, _⟩ => ⟨S32x64, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S40960x1024, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S40960x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S2048x64, .f32⟩
  | .hbm, ⟨40, _⟩ => ⟨S4096x64, .f32⟩
  | .hbm, ⟨41, _⟩ => ⟨S1x64, .f32⟩
  | .hbm, ⟨42, _⟩ => ⟨S4096x64, .f32⟩
  | .hbm, ⟨43, _⟩ => ⟨S4096x64, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096x64, .f32⟩
  | .hbm, ⟨48, _⟩ => ⟨S4096x64, .f32⟩
  | .hbm, ⟨49, _⟩ => ⟨S_, .f32⟩
  | .hbm, ⟨50, _⟩ => ⟨S4096x64, .f32⟩
  | .hbm, ⟨51, _⟩ => ⟨S4096x64, .f32⟩
  | .hbm, ⟨52, _⟩ => ⟨S64x32, .f32⟩
  | .hbm, ⟨53, _⟩ => ⟨S4096x32, .f32⟩
  | .hbm, ⟨54, _⟩ => ⟨S1x32, .f32⟩
  | .hbm, ⟨55, _⟩ => ⟨S4096x32, .f32⟩
  | .hbm, ⟨56, _⟩ => ⟨S4096x32, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096x32, .f32⟩
  | .hbm, ⟨61, _⟩ => ⟨S4096x32, .f32⟩
  | .hbm, ⟨62, _⟩ => ⟨S_, .f32⟩
  | .hbm, ⟨63, _⟩ => ⟨S4096x32, .f32⟩
  | .hbm, ⟨64, _⟩ => ⟨S4096x32, .f32⟩
  | .hbm, ⟨65, _⟩ => ⟨S32x1, .f32⟩
  | .hbm, ⟨66, _⟩ => ⟨S4096x1, .f32⟩
  | .hbm, ⟨67, _⟩ => ⟨S1x1, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | _, _ => ⟨S4096x40960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_cst_5 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_6 : Ref sig .tc := ⟨.hbm, 72, rfl⟩
abbrev main_v39 : Ref sig .tc := ⟨.hbm, 73, rfl⟩
abbrev main_v40 : Ref sig .tc := ⟨.hbm, 74, rfl⟩
abbrev main_cst_7 : Ref sig .tc := ⟨.hbm, 75, rfl⟩
abbrev main_v41 : Ref sig .tc := ⟨.hbm, 76, rfl⟩
abbrev main_v42 : Ref sig .tc := ⟨.hbm, 77, rfl⟩

abbrev nD : Nat := 1
abbrev τ : Topo := Topo.v7x

variable {F : FTy → Type} [FloatOps F]

class Facts₀ : Prop where
  transposes_S1024x40960_S40960x1024_1_0 : S1024x40960.Transposes [1, 0] S40960x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  concatenates_S4096x1024_S4096x1024_S4096x2048_d1 : Shape.Concatenates [S4096x1024, S4096x1024] S4096x2048 1
  bcast_S4096x1_S4096x2048_0_1 : S4096x1.BroadcastsInDim S4096x2048 (![0, 1] : Fin 2 → Fin S4096x2048.rank)
  bcast_S_S4096x1 : S_.BroadcastsInDim S4096x1 (![] : Fin 0 → Fin S4096x1.rank)
  bcast_S_S4096x2048 : S_.BroadcastsInDim S4096x2048 (![] : Fin 0 → Fin S4096x2048.rank)
  transposes_S64x2048_S2048x64_1_0 : S64x2048.Transposes [1, 0] S2048x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  transposes_S32x64_S64x32_1_0 : S32x64.Transposes [1, 0] S64x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  transposes_S1x32_S32x1_1_0 : S1x32.Transposes [1, 0] S32x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x40960_S40960x1024_S4096x1024_1_0_0_1_n_n_wf : DotDims.WF S4096x40960 S40960x1024 S4096x1024 [1] [0] [0] [1] [] []
  dot_S4096x2048_S2048x64_S4096x64_1_0_0_1_n_n_wf : DotDims.WF S4096x2048 S2048x64 S4096x64 [1] [0] [0] [1] [] []
  dot_S4096x64_S64x32_S4096x32_1_0_0_1_n_n_wf : DotDims.WF S4096x64 S64x32 S4096x32 [1] [0] [0] [1] [] []
  dot_S4096x32_S32x1_S4096x1_1_0_0_1_n_n_wf : DotDims.WF S4096x32 S32x1 S4096x1 [1] [0] [0] [1] [] []

variable [Facts₀]

def dot_S4096x40960_S40960x1024_S4096x1024_1_0_0_1_n_n : DotDims S4096x40960 S40960x1024 S4096x1024 where
  lhsContracting := [1]
  rhsContracting := [0]
  lhsNonContracting := [0]
  rhsNonContracting := [1]
  lhsBatch := []
  rhsBatch := []
  wf := dot_S4096x40960_S40960x1024_S4096x1024_1_0_0_1_n_n_wf
def dot_S4096x2048_S2048x64_S4096x64_1_0_0_1_n_n : DotDims S4096x2048 S2048x64 S4096x64 where
  lhsContracting := [1]
  rhsContracting := [0]
  lhsNonContracting := [0]
  rhsNonContracting := [1]
  lhsBatch := []
  rhsBatch := []
  wf := dot_S4096x2048_S2048x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

class Facts : Prop extends Facts₀ where

variable [Facts]
-- ==== Proof.KernelRun.lean ====
/-
  The kernel program's run with its two results kept.

  @main is five segments: a host stretch, the two feature-transformer launches, a second host stretch, the head's
  launch. Every weakly fair execution from a memory with zero counters terminates, and in the final state every
  unscoped buffer holds the last boundary's contents `W5`: in particular the two result arrays, which is what this
  module states beside the unchanged arguments. The result arrays' contents are then read back region by region in
  the modules that follow.
-/
import proofs.«121477_j42820823941279_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result arrays at the last
    boundary's contents and the eleven argument arrays as launched. -/
theorem run_results : θ_run defs (onTc (τ := τ) (main (F := F))) ⟨m, fun _ => 0, ρ⟩ (fun r => ∀ c : Dev nD,
      r.2.mem ((c.tc : Thread nD τ).loc main_v8_0) = W5 m ρ c (Proc.devRef .tc main_v8_0)
      ∧ r.2.mem ((c.tc : Thread nD τ).loc main_v8_1) = W5 m ρ c (Proc.devRef .tc main_v8_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v8_0 (by decide)),
       h c _ (mem_uc main_v8_1 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.Run

end
-- ==== Proof.FtCases0.lean ====
/-
  What one grid point of the feature transformer leaves in its output block, case by case.

  The output block is the whole [4096, 1024] result and stays in its staging buffer over the 80 points of the
  reduction axis. The first point stores zero, reads it back and leaves `0 + x · wᵀ` of its feature and weight
  blocks; a middle point leaves `acc + x · wᵀ`; the last point does the same and then adds the bias row to every
  row. Each case's stores cover the block, so the block after the point is the last store's payload.
-/
import proofs.«121477_j42820823941279_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.FtCases0

open Cert.KernelIdeal Cert.KernelIdeal.Gen

variable {F : FTy → Type} [FloatOps F]

theorem hz : (![0, 0] : Fin 2 → Nat) = fun _ => 0 := funext fun a => by fin_cases a <;> rfl

/-- A middle point: over the running block `xo` it leaves `xo + x0 · x1ᵀ`. -/
theorem out_mid (c : Dev nD) (i : grid0.Coords) (a1 : Memref sig .tc .vmem S4096x512 .f32) (h1 : a1.IsWhole)
    (a2 : Memref sig .tc .vmem S1024x512 .f32) (h2 : a2.IsWhole) (a3 : Memref sig .tc .vmem S1x1024 .f32) (h3 : a3.IsWhole)
    (a4 : Memref sig .tc .vmem S4096x1024 .f32) (h4 : a4.IsWhole) (hc0 : ¬cond0_0 i) (hc1 : ¬cond0_1 i)
    (x0 : Vec F S4096x512 .f32) (x1 : Vec F S1024x512 .f32) (x2 : Vec F S1x1024 .f32) (xo : Vec F S4096x1024 .f32) :
    out0_B_3 c i a1 h1 a2 h2 a3 h3 a4 h4 hc0 hc1 x0 x1 x2 xo = k0_pay2 x0 x1 xo := by
  unfold out0_B_3
  rw [View.read_writes_eq_canon _ _ _ (cover0_B_3 c i a1 h1 a2 h2 a3 h3 a4 h4 hc0 hc1 x0 x1 x2 xo)]
  unfold kernelRun0_B
  dsimp only
  rw [View.canon_unit_zero hz]
  simp only [View.readAt_eq_ld, h1.read_unread, h2.read_unread, h4.read_unread, View.ld_unit_zero (S := S4096x512) hz,
    View.ld_unit_zero (S := S1024x512) hz, View.ld_unit_zero (S := S4096x1024) hz]

/-- The first point: it stores the zero block, reads it back, and leaves `0 + x0 · x1ᵀ`. -/
theorem out_first (c : Dev nD) (i : grid0.Coords) (a1 : Memref sig .tc .vmem S4096x512 .f32) (h1 : a1.IsWhole)
    (a2 : Memref sig .tc .vmem S1024x512 .f32) (h2 : a2.IsWhole) (a3 : Memref sig .tc .vmem S1x1024 .f32) (h3 : a3.IsWhole)
    (a4 : Memref sig .tc .vmem S4096x1024 .f32) (h4 : a4.IsWhole) (hc0 : cond0_0 i) (hc1 : ¬cond0_1 i)
    (x0 : Vec F S4096x512 .f32) (x1 : Vec F S1024x512 .f32) (x2 : Vec F S1x1024 .f32) :
    out0_A_3 c i a1 h1 a2 h2 a3 h3 a4 h4 hc0 hc1 x0 x1 x2 = k0_pay2 x0 x1 k0_pay1 := by
  unfold out0_A_3
  rw [View.read_writes_eq_canon _ _ _ (cover0_A_3 c i a1 h1 a2 h2 a3 h3 a4 h4 hc0 hc1 x0 x1 x2)]
  unfold kernelRun0_A
  dsimp only
  sl_unfold_words
  rw [View.canon_cons_unit_zero (S := S4096x1024) hz, View.readCov_unit_zero (S := S4096x1024) _ hz]
  simp only [View.readAt_eq_ld, h1.read_unread, h2.read_unread, View.ld_unit_zero (S := S4096x512) hz,
    View.ld_unit_zero (S := S1024x512) hz, View.ld_unit_zero (S := S4096x1024) hz]

/-- The last point: over the running block `xo` it leaves `(xo + x0 · x1ᵀ)` plus the bias row `x2` on every row. -/
theorem out_last (c : Dev nD) (i : grid0.Coords) (a1 : Memref sig .tc .vmem S4096x512 .f32) (h1 : a1.IsWhole)
    (a2 : Memref sig .tc .vmem S1024x512 .f32) (h2 : a2.IsWhole) (a3 : Memref sig .tc .vmem S1x1024 .f32) (h3 : a3.IsWhole)
    (a4 : Memref sig .tc .vmem S4096x1024 .f32) (h4 : a4.IsWhole) (hc0 : ¬cond0_0 i) (hc1 : cond0_1 i)
    (x0 : Vec F S4096x512 .f32) (x1 : Vec F S1024x512 .f32) (x2 : Vec F S1x1024 .f32) (xo : Vec F S4096x1024 .f32) :
    out0_C_3 c i a1 h1 a2 h2 a3 h3 a4 h4 hc0 hc1 x0 x1 x2 xo = k0_pay3 (k0_pay2 x0 x1 xo) x2 := by
  unfold out0_C_3
  rw [View.read_writes_eq_canon _ _ _ (cover0_C_3 c i a1 h1 a2 h2 a3 h3 a4 h4 hc0 hc1 x0 x1 x2 xo)]
  unfold kernelRun0_C
  dsimp only
  sl_unfold_words
  rw [View.canon_cons_unit_zero (S := S4096x1024) hz, View.readCov_unit_zero (S := S4096x1024) _ hz]
  simp only [View.readAt_eq_ld, h1.read_unread, h2.read_unread, h3.read_unread, h4.read_unread,
    View.ld_unit_zero (S := S4096x512) hz, View.ld_unit_zero (S := S1024x512) hz, View.ld_unit_zero (S := S1x1024) hz,
    View.ld_unit_zero (S := S4096x1024) hz]

end Cert.KernelIdeal.FtCases0

end
-- ==== Proof.Spec.lean ====
/-
  The network both programs compute, as functions on the extended reals.

  A position has two accumulators, one per perspective: row `i` of `X · Wᵀ + b` for the white and for the black
  feature matrix (`ft`). The side to move `s` orders them: the first half of the hidden layer is
  `clip (s·a + (1 - s)·b)`, the second half the same with `a` and `b` exchanged (`hid1`). Three affine layers
  follow, the first two clipped to [0, 1] (`hid2`, `hid3`), the last one giving the raw score (`raw`), and the
  score's logistic is the second result (`sig`). The head is stated on one row, over plain functions of the
  coordinates; `rawArr` and `sigArr` are the two result arrays.
-/
import Idealize.ShloMosaic.Lib.ValueIdx
import Idealize.ShloMosaic.PureOps.Ideal.Laws

noncomputable section

open scoped BigOperators

namespace Cert.Nnue

open Idealize.ShloMosaic Idealize.ShloMosaic.ValueIdx

/-- A matrix and a vector of extended reals, by literal extents. -/
abbrev Mat (a b : ℕ) : Type := FVec Ideal ⟨2, ![a, b]⟩ .f32
abbrev Vc (a : ℕ) : Type := FVec Ideal ⟨1, ![a]⟩ .f32

/-! ## The two float words the programs spell -/

/-- The word of `0.0` is zero. -/
theorem ofBits_zero : Ideal.ofBits .f32 0x00000000#32 = 0 := Ideal.ofBits_zero_f32

/-- The word of `1.0` is one. -/
theorem ofBits_one : Ideal.ofBits .f32 0x3F800000#32 = 1 := by
  simp [Ideal.ofBits, Ideal.ieee, -EReal.coe_mul]; norm_num

/-! ## The feature transformer -/

/-- Entry `(i, j)` of `X · Wᵀ + b`: the inner product of row `i` of `X` with row `j` of `W`, plus `b j`. -/
def ft (X : Mat 4096 40960) (W : Mat 1024 40960) (b : Vc 1024) (i : Fin 4096) (j : Fin 1024) : EReal :=
  (∑ k : Fin 40960, X (ix2 i k) * W (ix2 j k)) + b (ix1 j)

/-! ## The head, on one row -/

/-- Clipping to the unit interval. -/
def clip01 (x : EReal) : EReal := min 1 (max 0 x)

/-- One half of the first hidden layer: the accumulators mixed by the side to move, clipped. The other half is
    `hid1 s b a`. -/
def hid1 (s : EReal) (a b : Fin 1024 → EReal) (k : Fin 1024) : EReal := clip01 (s * a k + (1 - s) * b k)

/-- The second hidden layer: the two halves against the two halves `U`, `V` of the weight's columns, plus the
    bias, clipped. -/
def hid2 (s : EReal) (a b : Fin 1024 → EReal) (U V : Fin 64 → Fin 1024 → EReal) (c1 : Fin 64 → EReal)
    (r : Fin 64) : EReal :=
  clip01 (((∑ k : Fin 1024, hid1 s a b k * U r k) + (∑ k : Fin 1024, hid1 s b a k * V r k)) + c1 r)

/-- The third hidden layer. -/
def hid3 (s : EReal) (a b : Fin 1024 → EReal) (U V : Fin 64 → Fin 1024 → EReal) (c1 : Fin 64 → EReal)
    (W2 : Fin 32 → Fin 64 → EReal) (c2 : Fin 32 → EReal) (q : Fin 32) : EReal :=
  clip01 ((∑ r : Fin 64, hid2 s a b U V c1 r * W2 q r) + c2 q)

/-- The raw score of the row. -/
def raw (s : EReal) (a b : Fin 1024 → EReal) (U V : Fin 64 → Fin 1024 → EReal) (c1 : Fin 64 → EReal)
    (W2 : Fin 32 → Fin 64 → EReal) (c2 : Fin 32 → EReal) (w3 : Fin 32 → EReal) (c3 : EReal) : EReal :=
  (∑ q : Fin 32, hid3 s a b U V c1 W2 c2 q * w3 q) + c3

/-- The score's logistic. -/
def sig (s : EReal) (a b : Fin 1024 → EReal) (U V : Fin 64 → Fin 1024 → EReal) (c1 : Fin 64 → EReal)
    (W2 : Fin 32 → Fin 64 → EReal) (c2 : Fin 32 → EReal) (w3 : Fin 32 → EReal) (c3 : EReal) : EReal :=
  Ideal.logistic (raw s a b U V c1 W2 c2 w3 c3)

/-! ## The result arrays -/

/-- Column `k` of the first, and of the second, half of a 2048-column matrix. -/
def lo (k : Fin 1024) : Fin 2048 := ⟨k.val, by have := k.isLt; omega⟩
def hi (k : Fin 1024) : Fin 2048 := ⟨1024 + k.val, by have := k.isLt; omega⟩

/-- The raw score of position `i`, from the eleven argument arrays. -/
def rawAt (Xw Xb : Mat 4096 40960) (stm : Mat 4096 1) (Wt : Mat 1024 40960) (bt : Vc 1024) (W1 : Mat 64 2048)
    (b1 : Vc 64) (W2 : Mat 32 64) (b2 : Vc 32) (W3 : Mat 1 32) (b3 : Vc 1) (i : Fin 4096) : EReal :=
  raw (stm (ix2 i (0 : Fin 1))) (fun k => ft Xw Wt bt i k) (fun k => ft Xb Wt bt i k)
    (fun r k => W1 (ix2 r (lo k))) (fun r k => W1 (ix2 r (hi k))) (fun r => b1 (ix1 r))
    (fun q r => W2 (ix2 q r)) (fun q => b2 (ix1 q)) (fun q => W3 (ix2 (0 : Fin 1) q)) (b3 (ix1 (0 : Fin 1)))

/-- Its logistic. -/
def sigAt (Xw Xb : Mat 4096 40960) (stm : Mat 4096 1) (Wt : Mat 1024 40960) (bt : Vc 1024) (W1 : Mat 64 2048)
    (b1 : Vc 64) (W2 : Mat 32 64) (b2 : Vc 32) (W3 : Mat 1 32) (b3 : Vc 1) (i : Fin 4096) : EReal :=
  Ideal.logistic (rawAt Xw Xb stm Wt bt W1 b1 W2 b2 W3 b3 i)

/-- The column of raw scores. -/
def rawArr (Xw Xb : Mat 4096 40960) (stm : Mat 4096 1) (Wt : Mat 1024 40960) (bt : Vc 1024) (W1 : Mat 64 2048)
    (b1 : Vc 64) (W2 : Mat 32 64) (b2 : Vc 32) (W3 : Mat 1 32) (b3 : Vc 1) : Mat 4096 1 :=
  fun j => rawAt Xw Xb stm Wt bt W1 b1 W2 b2 W3 b3 ⟨(j 0).val, idx2_lt0 j⟩

/-- The column of their logistics. -/
def sigArr (Xw Xb : Mat 4096 40960) (stm : Mat 4096 1) (Wt : Mat 1024 40960) (bt : Vc 1024) (W1 : Mat 64 2048)
    (b1 : Vc 64) (W2 : Mat 32 64) (b2 : Vc 32) (W3 : Mat 1 32) (b3 : Vc 1) : Mat 4096 1 :=
  fun j => sigAt Xw Xb stm Wt bt W1 b1 W2 b2 W3 b3 ⟨(j 0).val, idx2_lt0 j⟩

theorem rawArr_apply (Xw Xb : Mat 4096 40960) (stm : Mat 4096 1) (Wt : Mat 1024 40960) (bt : Vc 1024)
    (W1 : Mat 64 2048) (b1 : Vc 64) (W2 : Mat 32 64) (b2 : Vc 32) (W3 : Mat 1 32) (b3 : Vc 1) (i : Fin 4096)
    (u : Fin 1) :
    rawArr Xw Xb stm Wt bt W1 b1 W2 b2 W3 b3 (ix2 i u) = rawAt Xw Xb stm Wt bt W1 b1 W2 b2 W3 b3 i := rfl

theorem sigArr_apply (Xw Xb : Mat 4096 40960) (stm : Mat 4096 1) (Wt : Mat 1024 40960) (bt : Vc 1024)
    (W1 : Mat 64 2048) (b1 : Vc 64) (W2 : Mat 32 64) (b2 : Vc 32) (W3 : Mat 1 32) (b3 : Vc 1) (i : Fin 4096)
    (u : Fin 1) :
    sigArr Xw Xb stm Wt bt W1 b1 W2 b2 W3 b3 (ix2 i u) = sigAt Xw Xb stm Wt bt W1 b1 W2 b2 W3 b3 i := rfl

/-- A column array is determined by its entries `(i, 0)`. -/
theorem col_ext {A B : Mat 4096 1} (h : ∀ i : Fin 4096, A (ix2 i (0 : Fin 1)) = B (ix2 i (0 : Fin 1))) : A = B := by
  funext j
  obtain ⟨i, u, rfl⟩ : ∃ (i : Fin 4096) (u : Fin 1), j = ix2 i u := ⟨j 0, j 1, eq_ix2 j⟩
  obtain rfl : u = 0 := Subsingleton.elim _ _
  exact h i

end Cert.Nnue

end
-- ==== Proof.LibMatmulRows.lean ====
/-
  A matrix product that contracts the LAST axis of both operands, from the zero accumulator, read at an entry.

  With the left operand [M, K] and the right operand [N, K], both contracted on their second axis, the result
  [M, N] at (p, r) is the sum over k of left (p, k) times right (r, k): row p of the left operand against
  row r of the right one. Stated for any dimension record that lists exactly those axes, at the exact
  instance (extended reals), general in the extents and in the operands' float formats.
-/
import Idealize.ShloMosaic.Lib.ValueIdx
import Idealize.ShloMosaic.PureOps.Ideal.Laws

namespace Cert.MatmulRows

open Idealize.ShloMosaic Idealize.ShloMosaic.ValueIdx

/-- Rows against rows: `matmul` of [M, K] and [N, K] contracting axis 1 of each, accumulator zero, at (p, r). -/
theorem matmul_rows_apply {M N K : ℕ} {φ₁ φ₂ : FTy}
    (d : DotDims ⟨2, ![M, K]⟩ ⟨2, ![N, K]⟩ ⟨2, ![M, N]⟩) (prec : Option ContractPrecision)
    (hlc : d.lhsContracting = [1]) (hrc : d.rhsContracting = [1])
    (hln : d.lhsNonContracting = [0]) (hrn : d.rhsNonContracting = [0])
    (hlb : d.lhsBatch = []) (hrb : d.rhsBatch = [])
    (lhs : FVec Ideal ⟨2, ![M, K]⟩ φ₁) (rhs : FVec Ideal ⟨2, ![N, K]⟩ φ₂) (p : Fin M) (r : Fin N) :
    FloatOps.matmul d prec lhs rhs (constant (F := Ideal) ⟨2, ![M, N]⟩ .f32 0x00000000#32) (ix2 p r)
      = ∑ k : Fin K, lhs (ix2 p k) * rhs (ix2 r k) := by
  obtain ⟨lc, rc, ln, rn, lb, rb, wf⟩ := d
  dsimp only at hlc hrc hln hrn hlb hrb
  subst hlc hrc hln hrn hlb hrb
  generalize hd : (⟨[1], [1], [0], [0], [], [], wf⟩ : DotDims ⟨2, ![M, K]⟩ ⟨2, ![N, K]⟩ ⟨2, ![M, N]⟩) = d
  have hlc : d.lhsContracting = [1] := by rw [← hd]
  have hrc : d.rhsContracting = [1] := by rw [← hd]
  have hr : d.contr.rank = 1 := by rw [← hd]; rfl
  have hs : d.contr.size ⟨0, by omega⟩ = K := by subst hd; rfl
  rw [Ideal.matmul_constant_zero_apply, ← Equiv.sum_comp (contrEquiv1 d K hr hs).symm]
  refine Finset.sum_congr rfl fun k _ => ?_
  have hk := contrEquiv1_symm_val d K hr hs k
  have el : d.lhsIdx (ix2 p r) ((contrEquiv1 d K hr hs).symm k) = ix2 p k := funext fun a => Fin.ext (by
    match a with
    | ⟨0, h0⟩ =>
      subst hd
      unfold DotDims.lhsIdx
      rw [dif_neg List.not_mem_nil,
        dif_pos (show (⟨0, h0⟩ : Fin (⟨2, ![M, K]⟩ : Shape).rank) ∈ [0] from List.mem_singleton.mpr (Fin.ext rfl))]
      rfl
    | ⟨1, _⟩ => exact (d.lhsIdx_val_of_single hlc _ _).trans hk)
  have er : d.rhsIdx (ix2 p r) ((contrEquiv1 d K hr hs).symm k) = ix2 r k := funext fun a => Fin.ext (by
    match a with
    | ⟨0, h0⟩ =>
      subst hd
      unfold DotDims.rhsIdx
      rw [dif_neg List.not_mem_nil,
        dif_pos (show (⟨0, h0⟩ : Fin (⟨2, ![N, K]⟩ : Shape).rank) ∈ [0] from List.mem_singleton.mpr (Fin.ext rfl))]
      rfl
    | ⟨1, _⟩ => exact (d.rhsIdx_val_of_single hrc _ _).trans hk)
  rw [el, er]

end Cert.MatmulRows
-- ==== Proof.FtPay0.lean ====
/-
  The feature transformer's three stored values at an entry, over the extended reals.

  The zero block is zero everywhere; a point's update at `(i, j)` is the running entry plus the inner product of
  row `i` of the feature block with row `j` of the weight block (the rounding to the narrower float format is
  the identity on the extended reals, and the contraction starts from the zero accumulator); the last point's
  closing value adds entry `j` of the bias row.
-/
import proofs.«121477_j42820823941279_2_alg».proof.Proof.Gen.KernelIdeal.Skeleton
import proofs.«121477_j42820823941279_2_alg».proof.Proof.Spec
import proofs.«121477_j42820823941279_2_alg».proof.Proof.LibMatmulRows
import Idealize.ShloMosaic.Lib.Pipeline.Value
import Idealize.ShloMosaic.Lib.ValueLayout

noncomputable section

open scoped BigOperators
open Idealize.ShloMosaic Idealize.ShloMosaic.ValueIdx

namespace Cert.KernelIdeal.FtPay0

open Cert.KernelIdeal Cert.KernelIdeal.Gen Cert.Nnue

/-- The zero block's entries are zero. -/
theorem zero_apply (i : Fin 4096) (j : Fin 1024) : k0_pay1 (F := Ideal) (ix2 i j) = 0 :=
  Cert.Nnue.ofBits_zero

/-- A point's update at `(i, j)`: the running entry plus the inner product of the two blocks' rows. -/
theorem update_apply (x0 : Mat 4096 512) (x1 : Mat 1024 512) (xo : Mat 4096 1024) (i : Fin 4096) (j : Fin 1024) :
    k0_pay2 (F := Ideal) x0 x1 xo (ix2 i j) = xo (ix2 i j) + ∑ l : Fin 512, x0 (ix2 i l) * x1 (ix2 j l) := by
  unfold k0_pay2
  rw [addf_apply, shapeCast_self]
  exact congrArg (xo (ix2 i j) + ·)
    ((Cert.MatmulRows.matmul_rows_apply dot_S4096x512_S1024x512_S4096x1024_1_1_0_0_n_n none rfl rfl rfl rfl rfl rfl
      (truncf .bf16 x0 bitsLt_bf16_f32) (truncf .bf16 x1 bitsLt_bf16_f32) i j).trans
      (Finset.sum_congr rfl fun l _ => rfl))

/-- The closing value at `(i, j)`: the entry plus the bias row's entry `j`. -/
theorem close_apply (v : Mat 4096 1024) (b : Mat 1 1024) (i : Fin 4096) (j : Fin 1024) :
    k0_pay3 (F := Ideal) v b (ix2 i j) = v (ix2 i j) + b (ix2 (0 : Fin 1) j) := by
  unfold k0_pay3
  rw [addf_apply, shapeCast_self, shapeCast_self]
  exact congrArg (v (ix2 i j) + ·) (broadcastTo_1b_ab_apply b broadcasts_S1x1024_S4096x1024 i j)

end Cert.KernelIdeal.FtPay0

end
-- ==== Proof.FtSum.lean ====
/-
  The inner product of two rows of 40960 entries, accumulated 512 entries at a time.

  The feature transformer's reduction axis is cut into 80 tiles. A grid point adds its tile's partial inner product
  to the running value, which starts from zero: `acc 0 = 0 + tile 0`, `acc (n + 1) = acc n + tile (n + 1)`. The
  running value after tile `n` is the sum of the first `512 (n + 1)` terms, so after the last tile it is the whole
  inner product. Only the commutative-monoid laws of the extended reals' addition are used.
-/
import proofs.«121477_j42820823941279_2_alg».proof.Proof.Spec

noncomputable section

open scoped BigOperators

namespace Cert.Nnue.FtSum

open Idealize.ShloMosaic Idealize.ShloMosaic.ValueIdx Cert.Nnue

variable (X : Mat 4096 40960) (W : Mat 1024 40960) (i : Fin 4096) (j : Fin 1024)

/-- Term `k` of the inner product of row `i` of `X` with row `j` of `W`; zero past the last column. -/
def term (k : ℕ) : EReal := if h : k < 40960 then X (ix2 i ⟨k, h⟩) * W (ix2 j ⟨k, h⟩) else 0

/-- Tile `t`'s partial inner product: the terms of columns `512 t … 512 t + 511`. -/
def tile (t : ℕ) : EReal := ∑ l : Fin 512, term X W i j (512 * t + l.val)

/-- The running value after tile `n`, in the order the grid accumulates it. -/
def acc : ℕ → EReal
  | 0 => 0 + tile X W i j 0
  | n + 1 => acc n + tile X W i j (n + 1)

theorem tile_eq_range (t : ℕ) : tile X W i j t = ∑ l ∈ Finset.range 512, term X W i j (512 * t + l) :=
  Fin.sum_univ_eq_sum_range (fun l => term X W i j (512 * t + l)) 512

/-- After tile `n` the running value is the sum of the first `512 (n + 1)` terms. -/
theorem acc_eq : ∀ n : ℕ, acc X W i j n = ∑ k ∈ Finset.range (512 * (n + 1)), term X W i j k
  | 0 => by
    rw [acc, zero_add, tile_eq_range]
    exact Finset.sum_congr rfl fun l _ => by rw [Nat.mul_zero, Nat.zero_add]
  | n + 1 => by
    rw [acc, acc_eq n, tile_eq_range, show 512 * (n + 1 + 1) = 512 * (n + 1) + 512 from by ring, Finset.sum_range_add]

/-- After the last tile it is the whole inner product. -/
theorem acc_last : acc X W i j 79 = ∑ k : Fin 40960, X (ix2 i k) * W (ix2 j k) := by
  rw [acc_eq, show 512 * (79 + 1) = 40960 from rfl, ← Fin.sum_univ_eq_sum_range (fun k => term X W i j k) 40960]
  exact Finset.sum_congr rfl fun k _ => by rw [term, dif_pos k.isLt]

/-- A tile's term inside the array: column `512 t + l` of both rows. -/
theorem term_tile (t : ℕ) (ht : t < 80) (l : Fin 512) (k : Fin 40960) (hk : k.val = 512 * t + l.val) :
    term X W i j (512 * t + l.val) = X (ix2 i k) * W (ix2 j k) := by
  have hlt : 512 * t + l.val < 40960 := by rw [← hk]; exact k.isLt
  rw [term, dif_pos hlt]
  have e : (⟨512 * t + l.val, hlt⟩ : Fin 40960) = k := Fin.ext hk.symm
  rw [e]

end Cert.Nnue.FtSum

end
-- ==== Proof.FtAcc0.lean ====
/-
  What a feature-transformer launch leaves in its result array.

  The launch walks the 80 tiles of the reduction axis. Its feature window's block at point `t` is columns
  `512 t … 512 t + 511` of all 4096 rows, its weight window's block the same columns of all 1024 rows; the bias
  row and the [4096, 1024] result are one block each. By induction on the point, the result block after point
  `n < 79` holds at `(i, j)` the inner product's first `512 (n + 1)` terms, accumulated tile by tile from zero; the
  last point adds its tile and the bias. Only that last point writes the block back, and the block is the whole
  array, so the array ends at `X · Wᵀ + b`.
-/
import proofs.«121477_j42820823941279_2_alg».proof.Proof.FtCases0
import proofs.«121477_j42820823941279_2_alg».proof.Proof.FtPay0
import proofs.«121477_j42820823941279_2_alg».proof.Proof.FtSum

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.FtAcc0

open Cert.KernelIdeal Cert.KernelIdeal.Gen Cert.Nnue

variable (V : (c : Dev nD) → (b : Ref sig .tc) → Buf (Elt Ideal) ((c : Thread nD τ).loc b))

/-- The three arrays as the launch finds them, and the three blocks at a point, as matrices of extended reals. -/
abbrev XA (c : Dev nD) : Mat 4096 40960 := V c main_arg0
abbrev WA (c : Dev nD) : Mat 1024 40960 := V c main_arg3
abbrev BA (c : Dev nD) : Mat 1 1024 := V c main_v0
abbrev xb (c : Dev nD) (t : Fin cfg0.N) : Mat 4096 512 := iblk0 V c 0 t
abbrev wb (c : Dev nD) (t : Fin cfg0.N) : Mat 1024 512 := iblk0 V c 1 t
abbrev bb (c : Dev nD) (t : Fin cfg0.N) : Mat 1 1024 := iblk0 V c 2 t

/-- The entries `X · Wᵀ + b` with the bias given as a row. -/
def ftOut (X : Mat 4096 40960) (W : Mat 1024 40960) (brow : Mat 1 1024) : Mat 4096 1024 := fun y =>
  (∑ k : Fin 40960, X (ix2 (⟨(y 0).val, idx2_lt0 y⟩ : Fin 4096) k) * W (ix2 (⟨(y 1).val, idx2_lt1 y⟩ : Fin 1024) k))
    + brow (ix2 (0 : Fin 1) (⟨(y 1).val, idx2_lt1 y⟩ : Fin 1024))

theorem ftOut_apply (X : Mat 4096 40960) (W : Mat 1024 40960) (brow : Mat 1 1024) (i : Fin 4096) (j : Fin 1024) :
    ftOut X W brow (ix2 i j) = (∑ k : Fin 40960, X (ix2 i k) * W (ix2 j k)) + brow (ix2 (0 : Fin 1) j) := rfl

/-- The printed index maps over the grid: the feature and weight blocks move along the columns with the point, the
    bias row and the result block stay. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0 :=
  (by decide +kernel : ∀ t : Fin grid0.N, _)

/-- The feature block at point `t`, entry `(i, l)`: the array's entry `(i, 512 t + l)`. -/
theorem feat_blk (c : Dev nD) (t : Fin cfg0.N) (i : Fin 4096) (l : Fin 512) (k : Fin 40960)
    (hk : k.val = 512 * t.val + l.val) : xb V c t (ix2 i l) = XA V c (ix2 i k) := by
  obtain ⟨e0, e1, -, -, -, -⟩ := idx_facts t
  show V c main_arg0 (((cfg0.win 0).blk t).view.emb (ix2 i l)) = V c main_arg0 (ix2 i k)
  refine congrArg _ (funext fun a => Fin.ext ?_)
  match a with
  | ⟨0, _⟩ => show win0_0.index t (0 : Fin 2) * 4096 + 1 * i.val = i.val; rw [e0]; omega
  | ⟨1, _⟩ => show win0_0.index t (1 : Fin 2) * 512 + 1 * l.val = k.val; rw [e1, hk]; omega

/-- The weight block at point `t`, entry `(j, l)`: the array's entry `(j, 512 t + l)`. -/
theorem wt_blk (c : Dev nD) (t : Fin cfg0.N) (j : Fin 1024) (l : Fin 512) (k : Fin 40960)
    (hk : k.val = 512 * t.val + l.val) : wb V c t (ix2 j l) = WA V c (ix2 j k) := by
  obtain ⟨-, -, e0, e1, -, -⟩ := idx_facts t
  show V c main_arg3 (((cfg0.win 1).blk t).view.emb (ix2 j l)) = V c main_arg3 (ix2 j k)
  refine congrArg _ (funext fun a => Fin.ext ?_)
  match a with
  | ⟨0, _⟩ => show win0_1.index t (0 : Fin 2) * 1024 + 1 * j.val = j.val; rw [e0]; omega
  | ⟨1, _⟩ => show win0_1.index t (1 : Fin 2) * 512 + 1 * l.val = k.val; rw [e1, hk]; omega

/-- The bias block at any point is the bias row. -/
theorem bias_blk (c : Dev nD) (t : Fin cfg0.N) (u : Fin 1) (j : Fin 1024) :
    bb V c t (ix2 u j) = BA V c (ix2 u j) := by
  obtain ⟨-, -, -, -, e0, e1⟩ := idx_facts t
  show V c main_v0 (((cfg0.win 2).blk t).view.emb (ix2 u j)) = V c main_v0 (ix2 u j)
  refine congrArg _ (funext fun a => Fin.ext ?_)
  match a with
  | ⟨0, _⟩ => show win0_2.index t (0 : Fin 2) * 1 + 1 * u.val = u.val; rw [e0]; omega
  | ⟨1, _⟩ => show win0_2.index t (1 : Fin 2) * 1024 + 1 * j.val = j.val; rw [e1]; omega

/-- The two blocks' rows at point `t` contribute tile `t` of the inner product. -/
theorem tile_eq (c : Dev nD) (t : Fin cfg0.N) (i : Fin 4096) (j : Fin 1024) :
    ∑ l : Fin 512, xb V c t (ix2 i l) * wb V c t (ix2 j l) = FtSum.tile (XA V c) (WA V c) i j t.val := by
  have ht : t.val < 80 := lt_of_lt_of_eq t.isLt (show cfg0.N = 80 from N_0)
  unfold FtSum.tile
  refine Finset.sum_congr rfl fun l _ => ?_
  have hl : l.val < 512 := l.isLt
  have hk : 512 * t.val + l.val < 40960 := by omega
  rw [feat_blk V c t i l ⟨512 * t.val + l.val, hk⟩ rfl, wt_blk V c t j l ⟨512 * t.val + l.val, hk⟩ rfl]
  exact (FtSum.term_tile (XA V c) (WA V c) i j t.val ht l ⟨512 * t.val + l.val, hk⟩ rfl).symm

/-- Before the last point the result block holds the running value. -/
theorem outsAt_eq (c : Dev nD) : ∀ (n : ℕ) (h : n < cfg0.N), n < 79 → ∀ (i : Fin 4096) (j : Fin 1024),
    outsAt0 V c n h (ix2 i j) = FtSum.acc (XA V c) (WA V c) i j n
  | 0, h, _, i, j => by
    have e := outsAt0_A V c ⟨0, h⟩ rfl (by show ¬(0 : ℕ) % 80 = 79; decide)
    dsimp only at e
    rw [e, FtCases0.out_first]
    refine (FtPay0.update_apply (xb V c ⟨0, h⟩) (wb V c ⟨0, h⟩) k0_pay1 i j).trans ?_
    rw [FtPay0.zero_apply, tile_eq V c ⟨0, h⟩ i j]
    rfl
  | n + 1, h, hn, i, j => by
    have h0 : ¬(⟨n + 1, h⟩ : Fin cfg0.N).val % 80 = 0 := by dsimp only; omega
    have h1 : ¬(⟨n + 1, h⟩ : Fin cfg0.N).val % 80 = 79 := by dsimp only; omega
    have e := outsAt0_B V c ⟨n + 1, h⟩ h0 h1
    dsimp only at e
    rw [e, FtCases0.out_mid]
    refine (FtPay0.update_apply (xb V c ⟨n + 1, h⟩) (wb V c ⟨n + 1, h⟩) _ i j).trans ?_
    rw [tile_eq V c ⟨n + 1, h⟩ i j]
    show outsAt0 V c n _ (ix2 i j) + _ = _
    rw [outsAt_eq c n _ (by omega) i j]
    rfl

/-- After the last point it holds the inner product plus the bias. -/
theorem outsAt_last (c : Dev nD) (h : 79 < cfg0.N) (i : Fin 4096) (j : Fin 1024) :
    outsAt0 V c 79 h (ix2 i j)
      = (∑ k : Fin 40960, XA V c (ix2 i k) * WA V c (ix2 j k)) + BA V c (ix2 (0 : Fin 1) j) := by
  have e := outsAt0_C V c ⟨79, h⟩ (by show ¬(79 : ℕ) % 80 = 0; decide) (by show (79 : ℕ) % 80 = 79; decide)
  dsimp only at e
  rw [e, FtCases0.out_last]
  refine (FtPay0.close_apply _ (bb V c ⟨79, h⟩) i j).trans ?_
  rw [bias_blk V c ⟨79, h⟩ 0 j]
  refine congrArg (· + BA V c (ix2 (0 : Fin 1) j)) ?_
  refine (FtPay0.update_apply (xb V c ⟨79, h⟩) (wb V c ⟨79, h⟩) _ i j).trans ?_
  rw [tile_eq V c ⟨79, h⟩ i j]
  show outsAt0 V c 78 _ (ix2 i j) + _ = _
  rw [outsAt_eq V c 78 _ (by decide) i j]
  exact FtSum.acc_last (XA V c) (WA V c) i j

/-- The last point. -/
def tLast : Fin cfg0.N := ⟨79, by rw [show cfg0.N = 80 from N_0]; decide⟩

/-- The result block after the last point, as a whole block. -/
theorem outsAt_last_eq (c : Dev nD) :
    outsAt0 V c tLast.val tLast.isLt = ftOut (XA V c) (WA V c) (BA V c) := by
  funext y
  obtain ⟨i, j, rfl⟩ : ∃ (i : Fin 4096) (j : Fin 1024), y = ix2 i j := ⟨y 0, y 1, eq_ix2 y⟩
  exact outsAt_last V c tLast.isLt i j

set_option maxRecDepth 100000 in
/-- The one write-back, at the last point, writes it: the block is the whole array. -/
theorem flushed_eq (c : Dev nD) (t : Fin cfg0.N) (hf : (cfg0.win 3).flush t = true) :
    (dat0 V c).flushed 3 t
      = ((cfg0.win 3).blk t).view.read (Elt Ideal) (ftOut (XA V c) (WA V c) (BA V c)) := by
  have hN : cfg0.N = 80 := N_0
  have h79 : t.val = 79 := by have := (flush0_3 t).mp hf; have := t.isLt; omega
  obtain rfl : t = tLast := Fin.ext h79
  show (cfg0.win 3).cut (grid0.coords tLast) ((dat0 V c).after 3 tLast) = _
  rw [after0_3, outsAt_last_eq]
  have hz' : (fun a => win0_3.index tLast a * main_v1.ty.shape.size a) = fun _ => 0 :=
    funext fun a => by fin_cases a <;> decide +kernel
  exact (Memref.read_access_unit_zero (Elt Ideal) main_v1 hz' (fun a => by rw [congrFun hz' a]; simp)
    (ftOut (XA V c) (WA V c) (BA V c))).symm

set_option maxRecDepth 100000 in
/-- So the result array ends at `X · Wᵀ + b` of the arrays as the launch finds them. -/
theorem final (c : Dev nD) :
    (dat0 V c).arrAt 3 cfg0.N = ftOut (XA V c) (WA V c) (BA V c) :=
  (dat0 V c).arrAt_eq_of_cover 3 (ftOut (XA V c) (WA V c) (BA V c)) (flushed_eq V c) fun y =>
    ⟨tLast, (flush0_3 tLast).mpr rfl, by
      show y ∈ ((View.whole main_v1).slice (win0_3.rect tLast)).set
      rw [View.set_slice_whole, Rect.mem_set_unit]
      intro a
      have h0 : (y 0 : Nat) < 4096 := (y 0).isLt
      have h1 : (y 1 : Nat) < 1024 := (y 1).isLt
      match a with
      | ⟨0, _⟩ =>
        show win0_3.index tLast 0 * win0_3.size 0 ≤ (y 0 : Nat) ∧ (y 0 : Nat) < win0_3.index tLast 0 * win0_3.size 0 + win0_3.xsize (grid0.coords tLast) 0
        rw [show win0_3.index tLast 0 * win0_3.size 0 = 0 from by decide +kernel, show win0_3.xsize (grid0.coords tLast) 0 = 4096 from by decide +kernel]; omega
      | ⟨1, _⟩ =>
        show win0_3.index tLast 1 * win0_3.size 1 ≤ (y 1 : Nat) ∧ (y 1 : Nat) < win0_3.index tLast 1 * win0_3.size 1 + win0_3.xsize (grid0.coords tLast) 1
        rw [show win0_3.index tLast 1 * win0_3.size 1 = 0 from by decide +kernel, show win0_3.xsize (grid0.coords tLast) 1 = 1024 from by decide +kernel]; omega⟩

end Cert.KernelIdeal.FtAcc0

end
-- ==== Proof.FtCases1.lean ====
/-
  What one grid point of the feature transformer leaves in its output block, case by case.

  The output block is the whole [4096, 1024] result and stays in its staging buffer over the 80 points of the
  reduction axis. The first point stores zero, reads it back and leaves `0 + x · wᵀ` of its feature and weight
  blocks; a middle point leaves `acc + x · wᵀ`; the last point does the same and then adds the bias row to every
  row. Each case's stores cover the block, so the block after the point is the last store's payload.
-/
import proofs.«121477_j42820823941279_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.FtCases1

open Cert.KernelIdeal Cert.KernelIdeal.Gen

variable {F : FTy → Type} [FloatOps F]

theorem hz : (![0, 0] : Fin 2 → Nat) = fun _ => 0 := funext fun a => by fin_cases a <;> rfl

/-- A middle point: over the running block `xo` it leaves `xo + x0 · x1ᵀ`. -/
theorem out_mid (c : Dev nD) (i : grid1.Coords) (a1 : Memref sig .tc .vmem S4096x512 .f32) (h1 : a1.IsWhole)
    (a2 : Memref sig .tc .vmem S1024x512 .f32) (h2 : a2.IsWhole) (a3 : Memref sig .tc .vmem S1x1024 .f32) (h3 : a3.IsWhole)
    (a4 : Memref sig .tc .vmem S4096x1024 .f32) (h4 : a4.IsWhole) (hc0 : ¬cond1_0 i) (hc1 : ¬cond1_1 i)
    (x0 : Vec F S4096x512 .f32) (x1 : Vec F S1024x512 .f32) (x2 : Vec F S1x1024 .f32) (xo : Vec F S4096x1024 .f32) :
    out1_B_3 c i a1 h1 a2 h2 a3 h3 a4 h4 hc0 hc1 x0 x1 x2 xo = k1_pay2 x0 x1 xo := by
  unfold out1_B_3
  rw [View.read_writes_eq_canon _ _ _ (cover1_B_3 c i a1 h1 a2 h2 a3 h3 a4 h4 hc0 hc1 x0 x1 x2 xo)]
  unfold kernelRun1_B
  dsimp only
  rw [View.canon_unit_zero hz]
  simp only [View.readAt_eq_ld, h1.read_unread, h2.read_unread, h4.read_unread, View.ld_unit_zero (S := S4096x512) hz,
    View.ld_unit_zero (S := S1024x512) hz, View.ld_unit_zero (S := S4096x1024) hz]

/-- The first point: it stores the zero block, reads it back, and leaves `0 + x0 · x1ᵀ`. -/
theorem out_first (c : Dev nD) (i : grid1.Coords) (a1 : Memref sig .tc .vmem S4096x512 .f32) (h1 : a1.IsWhole)
    (a2 : Memref sig .tc .vmem S1024x512 .f32) (h2 : a2.IsWhole) (a3 : Memref sig .tc .vmem S1x1024 .f32) (h3 : a3.IsWhole)
    (a4 : Memref sig .tc .vmem S4096x1024 .f32) (h4 : a4.IsWhole) (hc0 : cond1_0 i) (hc1 : ¬cond1_1 i)
    (x0 : Vec F S4096x512 .f32) (x1 : Vec F S1024x512 .f32) (x2 : Vec F S1x1024 .f32) :
    out1_A_3 c i a1 h1 a2 h2 a3 h3 a4 h4 hc0 hc1 x0 x1 x2 = k1_pay2 x0 x1 k1_pay1 := by
  unfold out1_A_3
  rw [View.read_writes_eq_canon _ _ _ (cover1_A_3 c i a1 h1 a2 h2 a3 h3 a4 h4 hc0 hc1 x0 x1 x2)]
  unfold kernelRun1_A
  dsimp only
  sl_unfold_words
  rw [View.canon_cons_unit_zero (S := S4096x1024) hz, View.readCov_unit_zero (S := S4096x1024) _ hz]
  simp only [View.readAt_eq_ld, h1.read_unread, h2.read_unread, View.ld_unit_zero (S := S4096x512) hz,
    View.ld_unit_zero (S := S1024x512) hz, View.ld_unit_zero (S := S4096x1024) hz]

/-- The last point: over the running block `xo` it leaves `(xo + x0 · x1ᵀ)` plus the bias row `x2` on every row. -/
theorem out_last (c : Dev nD) (i : grid1.Coords) (a1 : Memref sig .tc .vmem S4096x512 .f32) (h1 : a1.IsWhole)
    (a2 : Memref sig .tc .vmem S1024x512 .f32) (h2 : a2.IsWhole) (a3 : Memref sig .tc .vmem S1x1024 .f32) (h3 : a3.IsWhole)
    (a4 : Memref sig .tc .vmem S4096x1024 .f32) (h4 : a4.IsWhole) (hc0 : ¬cond1_0 i) (hc1 : cond1_1 i)
    (x0 : Vec F S4096x512 .f32) (x1 : Vec F S1024x512 .f32) (x2 : Vec F S1x1024 .f32) (xo : Vec F S4096x1024 .f32) :
    out1_C_3 c i a1 h1 a2 h2 a3 h3 a4 h4 hc0 hc1 x0 x1 x2 xo = k1_pay3 (k1_pay2 x0 x1 xo) x2 := by
  unfold out1_C_3
  rw [View.read_writes_eq_canon _ _ _ (cover1_C_3 c i a1 h1 a2 h2 a3 h3 a4 h4 hc0 hc1 x0 x1 x2 xo)]
  unfold kernelRun1_C
  dsimp only
  sl_unfold_words
  rw [View.canon_cons_unit_zero (S := S4096x1024) hz, View.readCov_unit_zero (S := S4096x1024) _ hz]
  simp only [View.readAt_eq_ld, h1.read_unread, h2.read_unread, h3.read_unread, h4.read_unread,
    View.ld_unit_zero (S := S4096x512) hz, View.ld_unit_zero (S := S1024x512) hz, View.ld_unit_zero (S := S1x1024) hz,
    View.ld_unit_zero (S := S4096x1024) hz]

end Cert.KernelIdeal.FtCases1

end
-- ==== Proof.FtPay1.lean ====
/-
  The feature transformer's three stored values at an entry, over the extended reals.

  The zero block is zero everywhere; a point's update at `(i, j)` is the running entry plus the inner product of
  row `i` of the feature block with row `j` of the weight block (the rounding to the narrower float format is
  the identity on the extended reals, and the contraction starts from the zero accumulator); the last point's
  closing value adds entry `j` of the bias row.
-/
import proofs.«121477_j42820823941279_2_alg».proof.Proof.Gen.KernelIdeal.Skeleton
import proofs.«121477_j42820823941279_2_alg».proof.Proof.Spec
import proofs.«121477_j42820823941279_2_alg».proof.Proof.LibMatmulRows
import Idealize.ShloMosaic.Lib.Pipeline.Value
import Idealize.ShloMosaic.Lib.ValueLayout

noncomputable section

open scoped BigOperators
open Idealize.ShloMosaic Idealize.ShloMosaic.ValueIdx

namespace Cert.KernelIdeal.FtPay1

open Cert.KernelIdeal Cert.KernelIdeal.Gen Cert.Nnue

/-- The zero block's entries are zero. -/
theorem zero_apply (i : Fin 4096) (j : Fin 1024) : k1_pay1 (F := Ideal) (ix2 i j) = 0 :=
  Cert.Nnue.ofBits_zero

/-- A point's update at `(i, j)`: the running entry plus the inner product of the two blocks' rows. -/
theorem update_apply (x0 : Mat 4096 512) (x1 : Mat 1024 512) (xo : Mat 4096 1024) (i : Fin 4096) (j : Fin 1024) :
    k1_pay2 (F := Ideal) x0 x1 xo (ix2 i j) = xo (ix2 i j) + ∑ l : Fin 512, x0 (ix2 i l) * x1 (ix2 j l) := by
  unfold k1_pay2
  rw [addf_apply, shapeCast_self]
  exact congrArg (xo (ix2 i j) + ·)
    ((Cert.MatmulRows.matmul_rows_apply dot_S4096x512_S1024x512_S4096x1024_1_1_0_0_n_n none rfl rfl rfl rfl rfl rfl
      (truncf .bf16 x0 bitsLt_bf16_f32) (truncf .bf16 x1 bitsLt_bf16_f32) i j).trans
      (Finset.sum_congr rfl fun l _ => rfl))

/-- The closing value at `(i, j)`: the entry plus the bias row's entry `j`. -/
theorem close_apply (v : Mat 4096 1024) (b : Mat 1 1024) (i : Fin 4096) (j : Fin 1024) :
    k1_pay3 (F := Ideal) v b (ix2 i j) = v (ix2 i j) + b (ix2 (0 : Fin 1) j) := by
  unfold k1_pay3
  rw [addf_apply, shapeCast_self, shapeCast_self]
  exact congrArg (v (ix2 i j) + ·) (broadcastTo_1b_ab_apply b broadcasts_S1x1024_S4096x1024 i j)

end Cert.KernelIdeal.FtPay1

end
-- ==== Proof.FtAcc1.lean ====
/-
  What a feature-transformer launch leaves in its result array.

  The launch walks the 80 tiles of the reduction axis. Its feature window's block at point `t` is columns
  `512 t … 512 t + 511` of all 4096 rows, its weight window's block the same columns of all 1024 rows; the bias
  row and the [4096, 1024] result are one block each. By induction on the point, the result block after point
  `n < 79` holds at `(i, j)` the inner product's first `512 (n + 1)` terms, accumulated tile by tile from zero; the
  last point adds its tile and the bias. Only that last point writes the block back, and the block is the whole
  array, so the array ends at `X · Wᵀ + b`.
-/
import proofs.«121477_j42820823941279_2_alg».proof.Proof.FtCases1
import proofs.«121477_j42820823941279_2_alg».proof.Proof.FtPay1
import proofs.«121477_j42820823941279_2_alg».proof.Proof.FtSum

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.FtAcc1

open Cert.KernelIdeal Cert.KernelIdeal.Gen Cert.Nnue

variable (V : (c : Dev nD) → (b : Ref sig .tc) → Buf (Elt Ideal) ((c : Thread nD τ).loc b))

/-- The three arrays as the launch finds them, and the three blocks at a point, as matrices of extended reals. -/
abbrev XA (c : Dev nD) : Mat 4096 40960 := V c main_arg1
abbrev WA (c : Dev nD) : Mat 1024 40960 := V c main_arg3
abbrev BA (c : Dev nD) : Mat 1 1024 := V c main_v0
abbrev xb (c : Dev nD) (t : Fin cfg1.N) : Mat 4096 512 := iblk1 V c 0 t
abbrev wb (c : Dev nD) (t : Fin cfg1.N) : Mat 1024 512 := iblk1 V c 1 t
abbrev bb (c : Dev nD) (t : Fin cfg1.N) : Mat 1 1024 := iblk1 V c 2 t

/-- The entries `X · Wᵀ + b` with the bias given as a row. -/
def ftOut (X : Mat 4096 40960) (W : Mat 1024 40960) (brow : Mat 1 1024) : Mat 4096 1024 := fun y =>
  (∑ k : Fin 40960, X (ix2 (⟨(y 0).val, idx2_lt0 y⟩ : Fin 4096) k) * W (ix2 (⟨(y 1).val, idx2_lt1 y⟩ : Fin 1024) k))
    + brow (ix2 (0 : Fin 1) (⟨(y 1).val, idx2_lt1 y⟩ : Fin 1024))

theorem ftOut_apply (X : Mat 4096 40960) (W : Mat 1024 40960) (brow : Mat 1 1024) (i : Fin 4096) (j : Fin 1024) :
    ftOut X W brow (ix2 i j) = (∑ k : Fin 40960, X (ix2 i k) * W (ix2 j k)) + brow (ix2 (0 : Fin 1) j) := rfl

/-- The printed index maps over the grid: the feature and weight blocks move along the columns with the point, the
    bias row and the result block stay. -/
theorem idx_facts : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = 0 :=
  (by decide +kernel : ∀ t : Fin grid1.N, _)

/-- The feature block at point `t`, entry `(i, l)`: the array's entry `(i, 512 t + l)`. -/
theorem feat_blk (c : Dev nD) (t : Fin cfg1.N) (i : Fin 4096) (l : Fin 512) (k : Fin 40960)
    (hk : k.val = 512 * t.val + l.val) : xb V c t (ix2 i l) = XA V c (ix2 i k) := by
  obtain ⟨e0, e1, -, -, -, -⟩ := idx_facts t
  show V c main_arg1 (((cfg1.win 0).blk t).view.emb (ix2 i l)) = V c main_arg1 (ix2 i k)
  refine congrArg _ (funext fun a => Fin.ext ?_)
  match a with
  | ⟨0, _⟩ => show win1_0.index t (0 : Fin 2) * 4096 + 1 * i.val = i.val; rw [e0]; omega
  | ⟨1, _⟩ => show win1_0.index t (1 : Fin 2) * 512 + 1 * l.val = k.val; rw [e1, hk]; omega

/-- The weight block at point `t`, entry `(j, l)`: the array's entry `(j, 512 t + l)`. -/
theorem wt_blk (c : Dev nD) (t : Fin cfg1.N) (j : Fin 1024) (l : Fin 512) (k : Fin 40960)
    (hk : k.val = 512 * t.val + l.val) : wb V c t (ix2 j l) = WA V c (ix2 j k) := by
  obtain ⟨-, -, e0, e1, -, -⟩ := idx_facts t
  show V c main_arg3 (((cfg1.win 1).blk t).view.emb (ix2 j l)) = V c main_arg3 (ix2 j k)
  refine congrArg _ (funext fun a => Fin.ext ?_)
  match a with
  | ⟨0, _⟩ => show win1_1.index t (0 : Fin 2) * 1024 + 1 * j.val = j.val; rw [e0]; omega
  | ⟨1, _⟩ => show win1_1.index t (1 : Fin 2) * 512 + 1 * l.val = k.val; rw [e1, hk]; omega

/-- The bias block at any point is the bias row. -/
theorem bias_blk (c : Dev nD) (t : Fin cfg1.N) (u : Fin 1) (j : Fin 1024) :
    bb V c t (ix2 u j) = BA V c (ix2 u j) := by
  obtain ⟨-, -, -, -, e0, e1⟩ := idx_facts t
  show V c main_v0 (((cfg1.win 2).blk t).view.emb (ix2 u j)) = V c main_v0 (ix2 u j)
  refine congrArg _ (funext fun a => Fin.ext ?_)
  match a with
  | ⟨0, _⟩ => show win1_2.index t (0 : Fin 2) * 1 + 1 * u.val = u.val; rw [e0]; omega
  | ⟨1, _⟩ => show win1_2.index t (1 : Fin 2) * 1024 + 1 * j.val = j.val; rw [e1]; omega

/-- The two blocks' rows at point `t` contribute tile `t` of the inner product. -/
theorem tile_eq (c : Dev nD) (t : Fin cfg1.N) (i : Fin 4096) (j : Fin 1024) :
    ∑ l : Fin 512, xb V c t (ix2 i l) * wb V c t (ix2 j l) = FtSum.tile (XA V c) (WA V c) i j t.val := by
  have ht : t.val < 80 := lt_of_lt_of_eq t.isLt (show cfg1.N = 80 from N_1)
  unfold FtSum.tile
  refine Finset.sum_congr rfl fun l _ => ?_
  have hl : l.val < 512 := l.isLt
  have hk : 512 * t.val + l.val < 40960 := by omega
  rw [feat_blk V c t i l ⟨512 * t.val + l.val, hk⟩ rfl, wt_blk V c t j l ⟨512 * t.val + l.val, hk⟩ rfl]
  exact (FtSum.term_tile (XA V c) (WA V c) i j t.val ht l ⟨512 * t.val + l.val, hk⟩ rfl).symm

/-- Before the last point the result block holds the running value. -/
theorem outsAt_eq (c : Dev nD) : ∀ (n : ℕ) (h : n < cfg1.N), n < 79 → ∀ (i : Fin 4096) (j : Fin 1024),
    outsAt1 V c n h (ix2 i j) = FtSum.acc (XA V c) (WA V c) i j n
  | 0, h, _, i, j => by
    have e := outsAt1_A V c ⟨0, h⟩ rfl (by show ¬(0 : ℕ) % 80 = 79; decide)
    dsimp only at e
    rw [e, FtCases1.out_first]
    refine (FtPay1.update_apply (xb V c ⟨0, h⟩) (wb V c ⟨0, h⟩) k1_pay1 i j).trans ?_
    rw [FtPay1.zero_apply, tile_eq V c ⟨0, h⟩ i j]
    rfl
  | n + 1, h, hn, i, j => by
    have h0 : ¬(⟨n + 1, h⟩ : Fin cfg1.N).val % 80 = 0 := by dsimp only; omega
    have h1 : ¬(⟨n + 1, h⟩ : Fin cfg1.N).val % 80 = 79 := by dsimp only; omega
    have e := outsAt1_B V c ⟨n + 1, h⟩ h0 h1
    dsimp only at e
    rw [e, FtCases1.out_mid]
    refine (FtPay1.update_apply (xb V c ⟨n + 1, h⟩) (wb V c ⟨n + 1, h⟩) _ i j).trans ?_
    rw [tile_eq V c ⟨n + 1, h⟩ i j]
    show outsAt1 V c n _ (ix2 i j) + _ = _
    rw [outsAt_eq c n _ (by omega) i j]
    rfl

/-- After the last point it holds the inner product plus the bias. -/
theorem outsAt_last (c : Dev nD) (h : 79 < cfg1.N) (i : Fin 4096) (j : Fin 1024) :
    outsAt1 V c 79 h (ix2 i j)
      = (∑ k : Fin 40960, XA V c (ix2 i k) * WA V c (ix2 j k)) + BA V c (ix2 (0 : Fin 1) j) := by
  have e := outsAt1_C V c ⟨79, h⟩ (by show ¬(79 : ℕ) % 80 = 0; decide) (by show (79 : ℕ) % 80 = 79; decide)
  dsimp only at e
  rw [e, FtCases1.out_last]
  refine (FtPay1.close_apply _ (bb V c ⟨79, h⟩) i j).trans ?_
  rw [bias_blk V c ⟨79, h⟩ 0 j]
  refine congrArg (· + BA V c (ix2 (0 : Fin 1) j)) ?_
  refine (FtPay1.update_apply (xb V c ⟨79, h⟩) (wb V c ⟨79, h⟩) _ i j).trans ?_
  rw [tile_eq V c ⟨79, h⟩ i j]
  show outsAt1 V c 78 _ (ix2 i j) + _ = _
  rw [outsAt_eq V c 78 _ (by decide) i j]
  exact FtSum.acc_last (XA V c) (WA V c) i j

/-- The last point. -/
def tLast : Fin cfg1.N := ⟨79, by rw [show cfg1.N = 80 from N_1]; decide⟩

/-- The result block after the last point, as a whole block. -/
theorem outsAt_last_eq (c : Dev nD) :
    outsAt1 V c tLast.val tLast.isLt = ftOut (XA V c) (WA V c) (BA V c) := by
  funext y
  obtain ⟨i, j, rfl⟩ : ∃ (i : Fin 4096) (j : Fin 1024), y = ix2 i j := ⟨y 0, y 1, eq_ix2 y⟩
  exact outsAt_last V c tLast.isLt i j

set_option maxRecDepth 100000 in
/-- The one write-back, at the last point, writes it: the block is the whole array. -/
theorem flushed_eq (c : Dev nD) (t : Fin cfg1.N) (hf : (cfg1.win 3).flush t = true) :
    (dat1 V c).flushed 3 t
      = ((cfg1.win 3).blk t).view.read (Elt Ideal) (ftOut (XA V c) (WA V c) (BA V c)) := by
  have hN : cfg1.N = 80 := N_1
  have h79 : t.val = 79 := by have := (flush1_3 t).mp hf; have := t.isLt; omega
  obtain rfl : t = tLast := Fin.ext h79
  show (cfg1.win 3).cut (grid1.coords tLast) ((dat1 V c).after 3 tLast) = _
  rw [after1_3, outsAt_last_eq]
  have hz' : (fun a => win1_3.index tLast a * main_v2.ty.shape.size a) = fun _ => 0 :=
    funext fun a => by fin_cases a <;> decide +kernel
  exact (Memref.read_access_unit_zero (Elt Ideal) main_v2 hz' (fun a => by rw [congrFun hz' a]; simp)
    (ftOut (XA V c) (WA V c) (BA V c))).symm

set_option maxRecDepth 100000 in
/-- So the result array ends at `X · Wᵀ + b` of the arrays as the launch finds them. -/
theorem final (c : Dev nD) :
    (dat1 V c).arrAt 3 cfg1.N = ftOut (XA V c) (WA V c) (BA V c) :=
  (dat1 V c).arrAt_eq_of_cover 3 (ftOut (XA V c) (WA V c) (BA V c)) (flushed_eq V c) fun y =>
    ⟨tLast, (flush1_3 tLast).mpr rfl, by
      show y ∈ ((View.whole main_v2).slice (win1_3.rect tLast)).set
      rw [View.set_slice_whole, Rect.mem_set_unit]
      intro a
      have h0 : (y 0 : Nat) < 4096 := (y 0).isLt
      have h1 : (y 1 : Nat) < 1024 := (y 1).isLt
      match a with
      | ⟨0, _⟩ =>
        show win1_3.index tLast 0 * win1_3.size 0 ≤ (y 0 : Nat) ∧ (y 0 : Nat) < win1_3.index tLast 0 * win1_3.size 0 + win1_3.xsize (grid1.coords tLast) 0
        rw [show win1_3.index tLast 0 * win1_3.size 0 = 0 from by decide +kernel, show win1_3.xsize (grid1.coords tLast) 0 = 4096 from by decide +kernel]; omega
      | ⟨1, _⟩ =>
        show win1_3.index tLast 1 * win1_3.size 1 ≤ (y 1 : Nat) ∧ (y 1 : Nat) < win1_3.index tLast 1 * win1_3.size 1 + win1_3.xsize (grid1.coords tLast) 1
        rw [show win1_3.index tLast 1 * win1_3.size 1 = 0 from by decide +kernel, show win1_3.xsize (grid1.coords tLast) 1 = 1024 from by decide +kernel]; omega⟩

end Cert.KernelIdeal.FtAcc1

end
-- ==== Proof.Boundary.lean ====
/-
  What each launch finds in its arrays, traced back to the memory at launch.

  Between the launch of @main and the head's launch, a buffer changes only where something writes it: the first host
  stretch writes the bias row (the bias vector recast to one row), each feature-transformer launch writes its result
  array, the second host stretch writes the two halves of the first layer's weight (its columns 0…1023 and
  1024…2047) and the three bias rows. Every other buffer — in particular every argument array — is as launched.
  So the first launch finds the white features, the weight and the bias row; the second the black features, the same
  weight and bias row; and the head finds the two launches' results `X · Wᵀ + b`, the side to move, and its
  parameters in the layouts it wants.
-/
import proofs.«121477_j42820823941279_2_alg».proof.Proof.FtAcc0
import proofs.«121477_j42820823941279_2_alg».proof.Proof.FtAcc1
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Boundary

open Cert.KernelIdeal Cert.KernelIdeal.Gen Cert.Nnue

variable (m : (ℓ : Loc nD τ sig) → Buf (Elt Ideal) ℓ) (ρ : Dev nD → PrngReg)

/-! ## The host stretches write their results only -/

/-- The first host stretch leaves every buffer but the bias row as it was. -/
theorem keep0 (W : Valuation τ sig (Elt Ideal)) (b : Ref sig .tc) (hb : b ≠ main_v0) :
    StableHlo.after (hostOps0 (F := Ideal)) W (Proc.devRef .tc b) = W (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))

/-- The second host stretch leaves every buffer but the two weight halves and the three bias rows as it was. -/
theorem keep2 (W : Valuation τ sig (Elt Ideal)) (b : Ref sig .tc) (h3 : b ≠ main_v3) (h4 : b ≠ main_v4)
    (h5 : b ≠ main_v5) (h6 : b ≠ main_v6) (h7 : b ≠ main_v7) :
    StableHlo.after (hostOps2 (F := Ideal)) W (Proc.devRef .tc b) = W (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h3, StableHlo.devRef_ne_of_ne h4, StableHlo.devRef_ne_of_ne h5,
      StableHlo.devRef_ne_of_ne h6, StableHlo.devRef_ne_of_ne h7⟩))

/-! ## The first launch's arrays -/

theorem v1_feat (c : Dev nD) : V1 m ρ c main_arg0 = m ((c : Thread nD τ).loc main_arg0) :=
  keep0 (W0 m ρ c) main_arg0 (by decide)
theorem v1_wt (c : Dev nD) : V1 m ρ c main_arg3 = m ((c : Thread nD τ).loc main_arg3) :=
  keep0 (W0 m ρ c) main_arg3 (by decide)
/-- The bias row: the bias vector recast to one row. -/
theorem v1_bias (c : Dev nD) :
    V1 m ρ c main_v0 = shapeCast S1x1024 (m ((c : Thread nD τ).loc main_arg4)) shapeCasts_S1024_S1x1024 := by
  show StableHlo.after (hostOps0 (F := Ideal)) (W0 m ρ c) (Proc.devRef .tc main_v0) = _
  after_results
  rfl

/-- The entries `X · Wᵀ + b` of launched arrays, the bias recast to a row. -/
abbrev ftOf (X : Mat 4096 40960) (W : Mat 1024 40960) (b : Vc 1024) : Mat 4096 1024 :=
  FtAcc0.ftOut X W (shapeCast S1x1024 b shapeCasts_S1024_S1x1024)

/-- The first launch's result: `X · Wᵀ + b` of the white features. -/
theorem w2_out0 (c : Dev nD) : V2 m ρ c main_v1
    = ftOf (m ((c : Thread nD τ).loc main_arg0)) (m ((c : Thread nD τ).loc main_arg3)) (m ((c : Thread nD τ).loc main_arg4)) := by
  refine (W2_arr m ρ c 3).trans ((FtAcc0.final (V1 m ρ) c).trans ?_)
  show FtAcc0.ftOut (V1 m ρ c main_arg0) (V1 m ρ c main_arg3) (V1 m ρ c main_v0) = _
  rw [v1_feat m ρ c, v1_wt m ρ c, v1_bias m ρ c]

/-! ## The second launch's arrays -/

theorem v2_feat (c : Dev nD) : V2 m ρ c main_arg1 = m ((c : Thread nD τ).loc main_arg1) :=
  (W2_of_ne m ρ c main_arg1 (by decide)).trans (keep0 (W0 m ρ c) main_arg1 (by decide))
theorem v2_wt (c : Dev nD) : V2 m ρ c main_arg3 = m ((c : Thread nD τ).loc main_arg3) :=
  (W2_arr m ρ c 1).trans (((dat0 (V1 m ρ) c).arrAt_in 1 rfl _).trans ((A_eq0 (V1 m ρ) c 1).trans (v1_wt m ρ c)))
theorem v2_bias (c : Dev nD) :
    V2 m ρ c main_v0 = shapeCast S1x1024 (m ((c : Thread nD τ).loc main_arg4)) shapeCasts_S1024_S1x1024 :=
  (W2_arr m ρ c 2).trans (((dat0 (V1 m ρ) c).arrAt_in 2 rfl _).trans ((A_eq0 (V1 m ρ) c 2).trans (v1_bias m ρ c)))

/-- The second launch's result: `X · Wᵀ + b` of the black features. -/
theorem w3_out1 (c : Dev nD) : V3 m ρ c main_v2
    = ftOf (m ((c : Thread nD τ).loc main_arg1)) (m ((c : Thread nD τ).loc main_arg3)) (m ((c : Thread nD τ).loc main_arg4)) := by
  refine (W3_arr m ρ c 3).trans ((FtAcc1.final (V2 m ρ) c).trans ?_)
  show FtAcc1.ftOut (V2 m ρ c main_arg1) (V2 m ρ c main_arg3) (V2 m ρ c main_v0) = _
  rw [v2_feat m ρ c, v2_wt m ρ c, v2_bias m ρ c]
  rfl

/-- The second launch leaves the first launch's result in place. -/
theorem w3_out0 (c : Dev nD) : V3 m ρ c main_v1
    = ftOf (m ((c : Thread nD τ).loc main_arg0)) (m ((c : Thread nD τ).loc main_arg3)) (m ((c : Thread nD τ).loc main_arg4)) :=
  (W3_of_ne m ρ c main_v1 (by decide)).trans (w2_out0 m ρ c)

/-- An argument array no launch writes and no host stretch writes is as launched after the two launches. -/
theorem w3_arg (c : Dev nD) (b : Ref sig .tc) (h0 : b ≠ main_v0) (hb0 : ∀ w, Pipeline.arrRef spec0 w ≠ b)
    (hb1 : ∀ w, Pipeline.arrRef spec1 w ≠ b) : V3 m ρ c b = W0 m ρ c (Proc.devRef .tc b) :=
  (W3_of_ne m ρ c b hb1).trans ((W2_of_ne m ρ c b hb0).trans (keep0 (W0 m ρ c) b h0))

/-! ## The head's arrays -/

theorem v4_acc0 (c : Dev nD) : V4 m ρ c main_v1
    = ftOf (m ((c : Thread nD τ).loc main_arg0)) (m ((c : Thread nD τ).loc main_arg3)) (m ((c : Thread nD τ).loc main_arg4)) :=
  (keep2 (W3 m ρ c) main_v1 (by decide) (by decide) (by decide) (by decide) (by decide)).trans (w3_out0 m ρ c)
theorem v4_acc1 (c : Dev nD) : V4 m ρ c main_v2
    = ftOf (m ((c : Thread nD τ).loc main_arg1)) (m ((c : Thread nD τ).loc main_arg3)) (m ((c : Thread nD τ).loc main_arg4)) :=
  (keep2 (W3 m ρ c) main_v2 (by decide) (by decide) (by decide) (by decide) (by decide)).trans (w3_out1 m ρ c)
theorem v4_stm (c : Dev nD) : V4 m ρ c main_arg2 = m ((c : Thread nD τ).loc main_arg2) :=
  (keep2 (W3 m ρ c) main_arg2 (by decide) (by decide) (by decide) (by decide) (by decide)).trans
    (w3_arg m ρ c main_arg2 (by decide) (by decide) (by decide))
theorem v4_w2 (c : Dev nD) : V4 m ρ c main_arg7 = m ((c : Thread nD τ).loc main_arg7) :=
  (keep2 (W3 m ρ c) main_arg7 (by decide) (by decide) (by decide) (by decide) (by decide)).trans
    (w3_arg m ρ c main_arg7 (by decide) (by decide) (by decide))
theorem v4_w3 (c : Dev nD) : V4 m ρ c main_arg9 = m ((c : Thread nD τ).loc main_arg9) :=
  (keep2 (W3 m ρ c) main_arg9 (by decide) (by decide) (by decide) (by decide) (by decide)).trans
    (w3_arg m ρ c main_arg9 (by decide) (by decide) (by decide))

/-- The first weight's columns 0 … 1023. -/
theorem v4_w1lo (c : Dev nD) : V4 m ρ c main_v3
    = extractStridedSlice S64x1024 ![0, 0] (m ((c : Thread nD τ).loc main_arg5)) slices_S64x2048_S64x1024_0_0 := by
  show StableHlo.after (hostOps2 (F := Ideal)) (W3 m ρ c) (Proc.devRef .tc main_v3) = _
  after_results
  exact congrArg (extractStridedSlice S64x1024 ![0, 0] · slices_S64x2048_S64x1024_0_0)
    (w3_arg m ρ c main_arg5 (by decide) (by decide) (by decide))
/-- The first weight's columns 1024 … 2047. -/
theorem v4_w1hi (c : Dev nD) : V4 m ρ c main_v4
    = extractStridedSlice S64x1024 ![0, 1024] (m ((c : Thread nD τ).loc main_arg5)) slices_S64x2048_S64x1024_0_1024 := by
  show StableHlo.after (hostOps2 (F := Ideal)) (W3 m ρ c) (Proc.devRef .tc main_v4) = _
  after_results
  exact congrArg (extractStridedSlice S64x1024 ![0, 1024] · slices_S64x2048_S64x1024_0_1024)
    (w3_arg m ρ c main_arg5 (by decide) (by decide) (by decide))
/-- The three bias rows: each bias vector recast to one row. -/
theorem v4_b1 (c : Dev nD) : V4 m ρ c main_v5
    = shapeCast S1x64 (m ((c : Thread nD τ).loc main_arg6)) shapeCasts_S64_S1x64 := by
  show StableHlo.after (hostOps2 (F := Ideal)) (W3 m ρ c) (Proc.devRef .tc main_v5) = _
  after_results
  exact congrArg (shapeCast S1x64 · shapeCasts_S64_S1x64) (w3_arg m ρ c main_arg6 (by decide) (by decide) (by decide))
theorem v4_b2 (c : Dev nD) : V4 m ρ c main_v6
    = shapeCast S1x32 (m ((c : Thread nD τ).loc main_arg8)) shapeCasts_S32_S1x32 := by
  show StableHlo.after (hostOps2 (F := Ideal)) (W3 m ρ c) (Proc.devRef .tc main_v6) = _
  after_results
  exact congrArg (shapeCast S1x32 · shapeCasts_S32_S1x32) (w3_arg m ρ c main_arg8 (by decide) (by decide) (by decide))
theorem v4_b3 (c : Dev nD) : V4 m ρ c main_v7
    = shapeCast S1x1 (m ((c : Thread nD τ).loc main_arg10)) shapeCasts_S1_S1x1 := by
  show StableHlo.after (hostOps2 (F := Ideal)) (W3 m ρ c) (Proc.devRef .tc main_v7) = _
  after_results
  exact congrArg (shapeCast S1x1 · shapeCasts_S1_S1x1) (w3_arg m ρ c main_arg10 (by decide) (by decide) (by decide))

end Cert.KernelIdeal.Boundary

end
-- ==== Proof.HeadReads.lean ====
/-
  The head's launch: how its windows cut their arrays, and the columns its two result arrays end at.

  The launch walks four row blocks of 1024 positions. The two accumulator arrays and the side-to-move column are cut
  into those row blocks; the seven parameter arrays are one block each. Each result is a [4096, 1] column cut the
  same way, every block written back at its point, so the blocks cover the column: row `r` is in block `r / 1024`.
  `headRaw` and `headSig` state the columns over the ten arrays as the launch finds them.
-/
import proofs.«121477_j42820823941279_2_alg».proof.Proof.Gen.KernelIdeal.Frame
import proofs.«121477_j42820823941279_2_alg».proof.Proof.Spec
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.HeadReads

open Cert.KernelIdeal Cert.KernelIdeal.Gen Cert.Nnue

/-- The column of raw scores over the head's ten arrays: accumulators, side to move, the two halves of the first
    weight, its bias row, the second weight and bias row, the last weight row and bias. -/
def headRaw (A0 A1 : Mat 4096 1024) (S : Mat 4096 1) (U Vh : Mat 64 1024) (c1 : Mat 1 64) (W2 : Mat 32 64)
    (c2 w3 : Mat 1 32) (c3 : Mat 1 1) : Mat 4096 1 := fun y =>
  Nnue.raw (S (ix2 (⟨(y 0).val, idx2_lt0 y⟩ : Fin 4096) (0 : Fin 1))) (fun k => A0 (ix2 (⟨(y 0).val, idx2_lt0 y⟩ : Fin 4096) k))
    (fun k => A1 (ix2 (⟨(y 0).val, idx2_lt0 y⟩ : Fin 4096) k))
    (fun r k => U (ix2 r k)) (fun r k => Vh (ix2 r k)) (fun r => c1 (ix2 (0 : Fin 1) r)) (fun q r => W2 (ix2 q r))
    (fun q => c2 (ix2 (0 : Fin 1) q)) (fun q => w3 (ix2 (0 : Fin 1) q)) (c3 (ix2 (0 : Fin 1) (0 : Fin 1)))

/-- The column of their logistics. -/
def headSig (A0 A1 : Mat 4096 1024) (S : Mat 4096 1) (U Vh : Mat 64 1024) (c1 : Mat 1 64) (W2 : Mat 32 64)
    (c2 w3 : Mat 1 32) (c3 : Mat 1 1) : Mat 4096 1 := fun y =>
  Nnue.sig (S (ix2 (⟨(y 0).val, idx2_lt0 y⟩ : Fin 4096) (0 : Fin 1))) (fun k => A0 (ix2 (⟨(y 0).val, idx2_lt0 y⟩ : Fin 4096) k))
    (fun k => A1 (ix2 (⟨(y 0).val, idx2_lt0 y⟩ : Fin 4096) k))
    (fun r k => U (ix2 r k)) (fun r k => Vh (ix2 r k)) (fun r => c1 (ix2 (0 : Fin 1) r)) (fun q r => W2 (ix2 q r))
    (fun q => c2 (ix2 (0 : Fin 1) q)) (fun q => w3 (ix2 (0 : Fin 1) q)) (c3 (ix2 (0 : Fin 1) (0 : Fin 1)))

theorem headRaw_apply (A0 A1 : Mat 4096 1024) (S : Mat 4096 1) (U Vh : Mat 64 1024) (c1 : Mat 1 64) (W2 : Mat 32 64)
    (c2 w3 : Mat 1 32) (c3 : Mat 1 1) (i : Fin 4096) (u : Fin 1) :
    headRaw A0 A1 S U Vh c1 W2 c2 w3 c3 (ix2 i u) = Nnue.raw (S (ix2 i (0 : Fin 1))) (fun k => A0 (ix2 i k)) (fun k => A1 (ix2 i k))
    (fun r k => U (ix2 r k)) (fun r k => Vh (ix2 r k)) (fun r => c1 (ix2 (0 : Fin 1) r)) (fun q r => W2 (ix2 q r))
    (fun q => c2 (ix2 (0 : Fin 1) q)) (fun q => w3 (ix2 (0 : Fin 1) q)) (c3 (ix2 (0 : Fin 1) (0 : Fin 1))) := rfl

theorem headSig_apply (A0 A1 : Mat 4096 1024) (S : Mat 4096 1) (U Vh : Mat 64 1024) (c1 : Mat 1 64) (W2 : Mat 32 64)
    (c2 w3 : Mat 1 32) (c3 : Mat 1 1) (i : Fin 4096) (u : Fin 1) :
    headSig A0 A1 S U Vh c1 W2 c2 w3 c3 (ix2 i u) = Nnue.sig (S (ix2 i (0 : Fin 1))) (fun k => A0 (ix2 i k)) (fun k => A1 (ix2 i k))
    (fun r k => U (ix2 r k)) (fun r k => Vh (ix2 r k)) (fun r => c1 (ix2 (0 : Fin 1) r)) (fun q r => W2 (ix2 q r))
    (fun q => c2 (ix2 (0 : Fin 1) q)) (fun q => w3 (ix2 (0 : Fin 1) q)) (c3 (ix2 (0 : Fin 1) (0 : Fin 1))) := rfl

variable (V : (c : Dev nD) → (b : Ref sig .tc) → Buf (Elt Ideal) ((c : Thread nD τ).loc b))

/-- The printed index maps over the grid: the three row-cut inputs and the two results move down the rows with the
    point, the seven parameter arrays stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = t.val ∧ win2_10.index t (1 : Fin 2) = 0
    ∧ win2_11.index t (0 : Fin 2) = t.val ∧ win2_11.index t (1 : Fin 2) = 0 :=
  (by decide +kernel : ∀ t : Fin grid2.N, _)

/-- Window 0's block at point `t`, entry `(p, k)`: row `1024 t + p` of its array. -/
theorem blk0 (c : Dev nD) (t : Fin cfg2.N) (p : Fin 1024) (k : Fin 1024) (r : Fin 4096) (hr : r.val = 1024 * t.val + p.val) :
    iblk2 V c 0 t (ix2 p k) = V c main_v1 (ix2 r k) := by
  obtain ⟨e0, e1, -, -, -, -, -, -, -, -, -, -, -, -, -, -, -, -, -, -, -, -, -, -⟩ := idx_facts t
  show V c main_v1 (((cfg2.win 0).blk t).view.emb (ix2 p k)) = V c main_v1 (ix2 r k)
  refine congrArg _ (funext fun a => Fin.ext ?_)
  match a with
  | ⟨0, _⟩ => show win2_0.index t (0 : Fin 2) * 1024 + 1 * p.val = r.val; rw [e0, hr]; omega
  | ⟨1, _⟩ => show win2_0.index t (1 : Fin 2) * 1024 + 1 * k.val = k.val; rw [e1]; omega

/-- Window 1's block at point `t`, entry `(p, k)`: row `1024 t + p` of its array. -/
theorem blk1 (c : Dev nD) (t : Fin cfg2.N) (p : Fin 1024) (k : Fin 1024) (r : Fin 4096) (hr : r.val = 1024 * t.val + p.val) :
    iblk2 V c 1 t (ix2 p k) = V c main_v2 (ix2 r k) := by
  obtain ⟨-, -, e0, e1, -, -, -, -, -, -, -, -, -, -, -, -, -, -, -, -, -, -, -, -⟩ := idx_facts t
  show V c main_v2 (((cfg2.win 1).blk t).view.emb (ix2 p k)) = V c main_v2 (ix2 r k)
  refine congrArg _ (funext fun a => Fin.ext ?_)
  match a with
  | ⟨0, _⟩ => show win2_1.index t (0 : Fin 2) * 1024 + 1 * p.val = r.val; rw [e0, hr]; omega
  | ⟨1, _⟩ => show win2_1.index t (1 : Fin 2) * 1024 + 1 * k.val = k.val; rw [e1]; omega

/-- Window 2's block at point `t`, entry `(p, k)`: row `1024 t + p` of its array. -/
theorem blk2 (c : Dev nD) (t : Fin cfg2.N) (p : Fin 1024) (k : Fin 1) (r : Fin 4096) (hr : r.val = 1024 * t.val + p.val) :
    iblk2 V c 2 t (ix2 p k) = V c main_arg2 (ix2 r k) := by
  obtain ⟨-, -, -, -, e0, e1, -, -, -, -, -, -, -, -, -, -, -, -, -, -, -, -, -, -⟩ := idx_facts t
  show V c main_arg2 (((cfg2.win 2).blk t).view.emb (ix2 p k)) = V c main_arg2 (ix2 r k)
  refine congrArg _ (funext fun a => Fin.ext ?_)
  match a with
  | ⟨0, _⟩ => show win2_2.index t (0 : Fin 2) * 1024 + 1 * p.val = r.val; rw [e0, hr]; omega
  | ⟨1, _⟩ => show win2_2.index t (1 : Fin 2) * 1 + 1 * k.val = k.val; rw [e1]; omega

/-- Window 3's block at any point is its whole array. -/
theorem blk3 (c : Dev nD) (t : Fin cfg2.N) (p : Fin 64) (k : Fin 1024) :
    iblk2 V c 3 t (ix2 p k) = V c main_v3 (ix2 p k) := by
  obtain ⟨-, -, -, -, -, -, e0, e1, -, -, -, -, -, -, -, -, -, -, -, -, -, -, -, -⟩ := idx_facts t
  show V c main_v3 (((cfg2.win 3).blk t).view.emb (ix2 p k)) = V c main_v3 (ix2 p k)
  refine congrArg _ (funext fun a => Fin.ext ?_)
  match a with
  | ⟨0, _⟩ => show win2_3.index t (0 : Fin 2) * 64 + 1 * p.val = p.val; rw [e0]; omega
  | ⟨1, _⟩ => show win2_3.index t (1 : Fin 2) * 1024 + 1 * k.val = k.val; rw [e1]; omega

/-- Window 4's block at any point is its whole array. -/
theorem blk4 (c : Dev nD) (t : Fin cfg2.N) (p : Fin 64) (k : Fin 1024) :
    iblk2 V c 4 t (ix2 p k) = V c main_v4 (ix2 p k) := by
  obtain ⟨-, -, -, -, -, -, -, -, e0, e1, -, -, -, -, -, -, -, -, -, -, -, -, -, -⟩ := idx_facts t
  show V c main_v4 (((cfg2.win 4).blk t).view.emb (ix2 p k)) = V c main_v4 (ix2 p k)
  refine congrArg _ (funext fun a => Fin.ext ?_)
  match a with
  | ⟨0, _⟩ => show win2_4.index t (0 : Fin 2) * 64 + 1 * p.val = p.val; rw [e0]; omega
  | ⟨1, _⟩ => show win2_4.index t (1 : Fin 2) * 1024 + 1 * k.val = k.val; rw [e1]; omega

/-- Window 5's block at any point is its whole array. -/
theorem blk5 (c : Dev nD) (t : Fin cfg2.N) (p : Fin 1) (k : Fin 64) :
    iblk2 V c 5 t (ix2 p k) = V c main_v5 (ix2 p k) := by
  obtain ⟨-, -, -, -, -, -, -, -, -, -, e0, e1, -, -, -, -, -, -, -, -, -, -, -, -⟩ := idx_facts t
  show V c main_v5 (((cfg2.win 5).blk t).view.emb (ix2 p k)) = V c main_v5 (ix2 p k)
  refine congrArg _ (funext fun a => Fin.ext ?_)
  match a with
  | ⟨0, _⟩ => show win2_5.index t (0 : Fin 2) * 1 + 1 * p.val = p.val; rw [e0]; omega
  | ⟨1, _⟩ => show win2_5.index t (1 : Fin 2) * 64 + 1 * k.val = k.val; rw [e1]; omega

/-- Window 6's block at any point is its whole array. -/
theorem blk6 (c : Dev nD) (t : Fin cfg2.N) (p : Fin 32) (k : Fin 64) :
    iblk2 V c 6 t (ix2 p k) = V c main_arg7 (ix2 p k) := by
  obtain ⟨-, -, -, -, -, -, -, -, -, -, -, -, e0, e1, -, -, -, -, -, -, -, -, -, -⟩ := idx_facts t
  show V c main_arg7 (((cfg2.win 6).blk t).view.emb (ix2 p k)) = V c main_arg7 (ix2 p k)
  refine congrArg _ (funext fun a => Fin.ext ?_)
  match a with
  | ⟨0, _⟩ => show win2_6.index t (0 : Fin 2) * 32 + 1 * p.val = p.val; rw [e0]; omega
  | ⟨1, _⟩ => show win2_6.index t (1 : Fin 2) * 64 + 1 * k.val = k.val; rw [e1]; omega

/-- Window 7's block at any point is its whole array. -/
theorem blk7 (c : Dev nD) (t : Fin cfg2.N) (p : Fin 1) (k : Fin 32) :
    iblk2 V c 7 t (ix2 p k) = V c main_v6 (ix2 p k) := by
  obtain ⟨-, -, -, -, -, -, -, -, -, -, -, -, -, -, e0, e1, -, -, -, -, -, -, -, -⟩ := idx_facts t
  show V c main_v6 (((cfg2.win 7).blk t).view.emb (ix2 p k)) = V c main_v6 (ix2 p k)
  refine congrArg _ (funext fun a => Fin.ext ?_)
  match a with
  | ⟨0, _⟩ => show win2_7.index t (0 : Fin 2) * 1 + 1 * p.val = p.val; rw [e0]; omega
  | ⟨1, _⟩ => show win2_7.index t (1 : Fin 2) * 32 + 1 * k.val = k.val; rw [e1]; omega

/-- Window 8's block at any point is its whole array. -/
theorem blk8 (c : Dev nD) (t : Fin cfg2.N) (p : Fin 1) (k : Fin 32) :
    iblk2 V c 8 t (ix2 p k) = V c main_arg9 (ix2 p k) := by
  obtain ⟨-, -, -, -, -, -, -, -, -, -, -, -, -, -, -, -, e0, e1, -, -, -, -, -, -⟩ := idx_facts t
  show V c main_arg9 (((cfg2.win 8).blk t).view.emb (ix2 p k)) = V c main_arg9 (ix2 p k)
  refine congrArg _ (funext fun a => Fin.ext ?_)
  match a with
  | ⟨0, _⟩ => show win2_8.index t (0 : Fin 2) * 1 + 1 * p.val = p.val; rw [e0]; omega
  | ⟨1, _⟩ => show win2_8.index t (1 : Fin 2) * 32 + 1 * k.val = k.val; rw [e1]; omega

/-- Window 9's block at any point is its whole array. -/
theorem blk9 (c : Dev nD) (t : Fin cfg2.N) (p : Fin 1) (k : Fin 1) :
    iblk2 V c 9 t (ix2 p k) = V c main_v7 (ix2 p k) := by
  obtain ⟨-, -, -, -, -, -, -, -, -, -, -, -, -, -, -, -, -, -, e0, e1, -, -, -, -⟩ := idx_facts t
  show V c main_v7 (((cfg2.win 9).blk t).view.emb (ix2 p k)) = V c main_v7 (ix2 p k)
  refine congrArg _ (funext fun a => Fin.ext ?_)
  match a with
  | ⟨0, _⟩ => show win2_9.index t (0 : Fin 2) * 1 + 1 * p.val = p.val; rw [e0]; omega
  | ⟨1, _⟩ => show win2_9.index t (1 : Fin 2) * 1 + 1 * k.val = k.val; rw [e1]; omega

/-- Where point `t`'s block of a result column sits: entry `(p, u)` is row `1024 t + p`. -/
theorem emb10 (t : Fin cfg2.N) (p : Fin 1024) (u : Fin 1) (r : Fin 4096) (hr : r.val = 1024 * t.val + p.val) :
    ((cfg2.win 10).blk t).view.emb (ix2 p u) = ix2 r (0 : Fin 1) := by
  obtain ⟨-, -, -, -, -, -, -, -, -, -, -, -, -, -, -, -, -, -, -, -, e0, e1, -, -⟩ := idx_facts t
  funext a; apply Fin.ext
  have hu : u.val = 0 := by omega
  match a with
  | ⟨0, _⟩ => show win2_10.index t (0 : Fin 2) * 1024 + 1 * p.val = r.val; rw [e0, hr]; omega
  | ⟨1, _⟩ => show win2_10.index t (1 : Fin 2) * 1 + 1 * u.val = 0; rw [e1, hu]

theorem emb11 (t : Fin cfg2.N) (p : Fin 1024) (u : Fin 1) (r : Fin 4096) (hr : r.val = 1024 * t.val + p.val) :
    ((cfg2.win 11).blk t).view.emb (ix2 p u) = ix2 r (0 : Fin 1) := by
  obtain ⟨-, -, -, -, -, -, -, -, -, -, -, -, -, -, -, -, -, -, -, -, -, -, e0, e1⟩ := idx_facts t
  funext a; apply Fin.ext
  have hu : u.val = 0 := by omega
  match a with
  | ⟨0, _⟩ => show win2_11.index t (0 : Fin 2) * 1024 + 1 * p.val = r.val; rw [e0, hr]; omega
  | ⟨1, _⟩ => show win2_11.index t (1 : Fin 2) * 1 + 1 * u.val = 0; rw [e1, hu]

/-- Every entry of the first result column is in the block of the point `row / 1024`, which is written back. -/
theorem cover10 (y : S4096x1.Idx) : ∃ t : Fin cfg2.N, (cfg2.win 10).flush t = true ∧ y ∈ ((cfg2.win 10).blk t).view.set := by
  have h0 : (y 0 : Nat) < 4096 := (y 0).isLt
  have h1 : (y 1 : Nat) < 1 := (y 1).isLt
  have hN : cfg2.N = 4 := N_2
  let t : Fin cfg2.N := ⟨(y 0).val / 1024, by rw [hN]; omega⟩
  have ht : t.val = (y 0).val / 1024 := rfl
  obtain ⟨-, -, -, -, -, -, -, -, -, -, -, -, -, -, -, -, -, -, -, -, e0, e1, -, -⟩ := idx_facts t
  refine ⟨t, flush2_10 t, ?_⟩
  show y ∈ ((View.whole main_v8_0).slice (win2_10.rect t)).set
  rw [View.set_slice_whole, Rect.mem_set_unit]
  intro a
  match a with
  | ⟨0, _⟩ =>
    show win2_10.index t (0 : Fin 2) * 1024 ≤ (y 0 : Nat) ∧ (y 0 : Nat) < win2_10.index t (0 : Fin 2) * 1024 + 1024
    rw [e0, ht]; omega
  | ⟨1, _⟩ =>
    show win2_10.index t (1 : Fin 2) * 1 ≤ (y 1 : Nat) ∧ (y 1 : Nat) < win2_10.index t (1 : Fin 2) * 1 + 1
    rw [e1]; omega

theorem cover11 (y : S4096x1.Idx) : ∃ t : Fin cfg2.N, (cfg2.win 11).flush t = true ∧ y ∈ ((cfg2.win 11).blk t).view.set := by
  have h0 : (y 0 : Nat) < 4096 := (y 0).isLt
  have h1 : (y 1 : Nat) < 1 := (y 1).isLt
  have hN : cfg2.N = 4 := N_2
  let t : Fin cfg2.N := ⟨(y 0).val / 1024, by rw [hN]; omega⟩
  have ht : t.val = (y 0).val / 1024 := rfl
  obtain ⟨-, -, -, -, -, -, -, -, -, -, -, -, -, -, -, -, -, -, -, -, -, -, e0, e1⟩ := idx_facts t
  refine ⟨t, flush2_11 t, ?_⟩
  show y ∈ ((View.whole main_v8_1).slice (win2_11.rect t)).set
  rw [View.set_slice_whole, Rect.mem_set_unit]
  intro a
  match a with
  | ⟨0, _⟩ =>
    show win2_11.index t (0 : Fin 2) * 1024 ≤ (y 0 : Nat) ∧ (y 0 : Nat) < win2_11.index t (0 : Fin 2) * 1024 + 1024
    rw [e0, ht]; omega
  | ⟨1, _⟩ =>
    show win2_11.index t (1 : Fin 2) * 1 ≤ (y 1 : Nat) ∧ (y 1 : Nat) < win2_11.index t (1 : Fin 2) * 1 + 1
    rw [e1]; omega

end Cert.KernelIdeal.HeadReads

end
-- ==== Proof.LibAxisReads.lean ====
/-
  Reductions along ONE axis and rank-three layout steps, each read at an index given by its coordinates.

  A sum (or a maximum) along one axis of an array, read at a reduced index, ranges over the coordinates of the
  reduced axis with the other coordinates held: along the columns of a matrix [a, b] at row r it is over
  (r, k); along the middle axis of [a, b, c] at (p, q) over (p, k, q); along the last axis at (p, q)
  over (p, q, k). A maximum is the fold of max from the accumulator's value, in any order.

  A stack of m matrices [m, a, b] and the tall matrix [m * a, b] of their rows hold the same entries in the
  same row-major order: row p * a + q of the tall matrix is row q of matrix p. Inserting a unit axis moves
  nothing. A broadcast along an axis of extent one repeats the operand along it: the result at (p, q, r) reads
  the operand with 0 on each of its unit axes. General in the extents and in the element type.
-/
import Idealize.ShloMosaic.Lib.Pipeline.Value
import Idealize.ShloMosaic.Lib.ValueIdx
import Idealize.ShloMosaic.PureOps.Ideal.Laws

namespace Cert.AxisReads

open Idealize.ShloMosaic Idealize.ShloMosaic.ValueIdx

variable {α : Type}

/-! ## The reduced index with the coordinate put back -/

theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

theorem lift_mid {a b c : ℕ} (h : (⟨3, ![a, b, c]⟩ : Shape).Reduces [1] ⟨2, ![a, c]⟩) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums along one axis (a kernel's f32 lane or sublane sum from the zero accumulator) -/

/-- Along the columns of [a, b], at row r: the sum over k of the entries (r, k). -/
theorem sum_cols {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (lift_cols h r k))

/-- Along the middle axis of [a, b, c], at (p, q): the sum over k of the entries (p, k, q). -/
theorem sum_mid {a b c : ℕ} (src : FVec Ideal ⟨3, ![a, b, c]⟩ .f32) (h : (⟨3, ![a, b, c]⟩ : Shape).Reduces [1] ⟨2, ![a, c]⟩)
    (p : Fin a) (q : Fin c) :
    multiReduction .add [1] ⟨2, ![a, c]⟩ src 0x00000000#32 h (.inl rfl) rfl (ix2 p q) = ∑ k : Fin b, src (ix3 p k q) :=
  (Ideal.multiReduction_add_single src 0x00000000#32 h (.inl rfl) rfl (ix2 p q)).trans
    (Finset.sum_congr rfl fun k _ => congrArg src (lift_mid h p q k))

/-- Along the last axis of [a, b, c], at (p, q): the sum over k of the entries (p, q, k). -/
theorem sum_last {a b c : ℕ} (src : FVec Ideal ⟨3, ![a, b, c]⟩ .f32) (h : (⟨3, ![a, b, c]⟩ : Shape).Reduces [2] ⟨2, ![a, b]⟩)
    (p : Fin a) (q : Fin b) :
    multiReduction .add [2] ⟨2, ![a, b]⟩ src 0x00000000#32 h (.inl rfl) rfl (ix2 p q) = ∑ k : Fin c, src (ix3 p q k) :=
  (Ideal.multiReduction_add_single src 0x00000000#32 h (.inl rfl) rfl (ix2 p q)).trans
    (Finset.sum_congr rfl fun k _ => congrArg src (lift_last h p q k))

/-! ## Maxima along the columns, from the accumulator at minus infinity -/

/-- A kernel's row maximum of [a, b] at row r: the fold of max from the accumulator's value over the entries (r, k). -/
theorem max_cols {a b : ℕ} (src : FVec Ideal ⟨2, ![a, b]⟩ .f32) (h : (⟨2, ![a, b]⟩ : Shape).Reduces [1] ⟨1, ![a]⟩) (r : Fin a) :
    multiReduction .maximumf [1] ⟨1, ![a]⟩ src 0xFF800000#32 h (.inl rfl) rfl (ix1 r)
      = (Finset.univ : Finset (Fin b)).fold max (Ideal.ofBits .f32 0xFF800000#32) (fun k => src (ix2 r k)) :=
  (Ideal.multiReduction_maximumf_single src 0xFF800000#32 h (.inl rfl) rfl (ix1 r)).trans
    (congrArg ((Finset.univ : Finset (Fin b)).fold max (Ideal.ofBits .f32 0xFF800000#32))
      (funext fun k => congrArg src (lift_cols h r k)))

/-- The host's reduce with a maximum body along the columns of [a, b], at row r, from a rank-zero initial value. -/
theorem hostMax_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init ix0) (fun k => x (ix2 r k)) := by
  rw [Host.reduce_eq_fold_single FloatOps.maximumf x init h' h hu (ix1 r)]
  have e0 : Shape.Idx.first hu = ix0 := funext fun d => d.elim0
  rw [e0]
  exact congrArg ((Finset.univ : Finset (Fin b)).fold max (init ix0)) (funext fun k => congrArg x (lift_cols h r k))

/-! ## A stack of matrices and the tall matrix of their rows -/

/-- The stack [m, a, b] cast to the tall matrix [n, b], n = m * a: row p * a + q is row q of matrix p. -/
theorem shapeCast_stack_tall_apply {m a b n : ℕ} (x : (⟨3, ![m, a, b]⟩ : Shape).Idx → α)
    (h : (⟨3, ![m, a, b]⟩ : Shape).ShapeCasts ⟨2, ![n, b]⟩) (r : Fin n) (p : Fin m) (q : Fin a) (d : Fin b)
    (hr : r.val = p.val * a + q.val) : shapeCast ⟨2, ![n, b]⟩ x h (ix2 r d) = x (ix3 p q d) :=
  shapeCast_apply x h _ _ (by
    rw [Shape.rowMajor_val_three, Shape.rowMajor_val_two]
    show (p.val * a + q.val) * b + d.val = r.val * b + d.val
    rw [hr])

/-- The tall matrix [n, b], n = m * a, cast to the stack [m, a, b]: row q of matrix p is row p * a + q. -/
theorem shapeCast_tall_stack_apply {m a b n : ℕ} (x : (⟨2, ![n, b]⟩ : Shape).Idx → α)
    (h : (⟨2, ![n, b]⟩ : Shape).ShapeCasts ⟨3, ![m, a, b]⟩) (r : Fin n) (p : Fin m) (q : Fin a) (d : Fin b)
    (hr : r.val = p.val * a + q.val) : shapeCast ⟨3, ![m, a, b]⟩ x h (ix3 p q d) = x (ix2 r d) :=
  shapeCast_apply x h _ _ (by
    rw [Shape.rowMajor_val_three, Shape.rowMajor_val_two]
    show r.val * b + d.val = (p.val * a + q.val) * b + d.val
    rw [hr])

/-! ## A unit axis inserted -/

/-- [a, b] cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along unit axes of a rank-three array -/

/-- [a, 1, c] broadcast to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, b, c] broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- [a, b, 1] broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, 1] broadcast to [a, b, c] reads, at (p, q, r), the operand at (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.AxisReads
-- ==== Proof.LibColumnForms.lean ====
/-
  Two layout operations on a COLUMN, read at an index given by its coordinates.

  A row-wise reduction with `keepdims` leaves its result as a column: a vector of `a` entries is cast to the
  shape `[a, 1]`, and the column is then broadcast along the second axis to `[a, b]`. Each of the two steps
  reads, at an index of its result, the operand at one index: the cast at `(i, u)` reads entry `i` (the unit
  coordinate `u` is `0` and carries nothing), and the broadcast at `(p, c)` reads the column's entry `(p, 0)`
  (the column is constant along the second axis). General in the extents and in the element type.
-/
import Idealize.ShloMosaic.Lib.Pipeline.Value
import Idealize.ShloMosaic.Lib.ValueIdx

namespace Cert.ColumnForms

open Idealize.ShloMosaic Idealize.ShloMosaic.ValueIdx

variable {α : Type}

/-- A vector of `a` entries cast to the column shape `[a, 1]` reads, at `(i, u)`, entry `i`: both indices have
    row-major position `i`, since the unit coordinate is `0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `(p, 0)`: the first axis is
    kept (or has extent one, where `p` is `0` anyway), the second is the column's unit axis. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.HeadBody.lean ====
/-
  The head's body, read at one entry.

  The third region's body keeps one block of 1024 positions. From the two accumulator blocks `a`, `b`
  (1024 x 1024), the side-to-move column `s` (1024 x 1), the two halves `U`, `V` (64 x 1024) of the first
  weight with its bias `c1`, the second weight `W2` (32 x 64) with its bias `c2`, the last weight `w3`
  (a row of 32) and its bias `c3`, it leaves two columns: the raw score and its logistic.

  Row `p` of each is the network of the specification on row `p` of the inputs:
    * the two mixed and clipped halves at (p, k) are `hid1 s a b k` and `hid1 s b a k`: the column `s` is constant
      along the row, and `max 0` then `min 1` is `clip01`;
    * each product of a [1024, K] matrix with a [N, K] matrix along their second axes, from zero, is at (p, r) the
      sum over k of row p against row r; a bias row is the same on every row;
    * the sum along the 32 columns, set as a column, plus the one bias entry, is `raw`; its logistic is `sig`.
-/
import proofs.«121477_j42820823941279_2_alg».proof.Proof.Gen.KernelIdeal.Frame
import proofs.«121477_j42820823941279_2_alg».proof.Proof.Spec
import proofs.«121477_j42820823941279_2_alg».proof.Proof.LibMatmulRows
import proofs.«121477_j42820823941279_2_alg».proof.Proof.LibAxisReads
import proofs.«121477_j42820823941279_2_alg».proof.Proof.LibColumnForms
import Idealize.ShloMosaic.Lib.ValueLayout

noncomputable section

open scoped BigOperators

namespace Cert.Nnue.HeadBody

open Cert.Nnue Cert.KernelIdeal Cert.KernelIdeal.Gen Idealize.ShloMosaic Idealize.ShloMosaic.ValueIdx

/-! ## The body's two results as whole vectors -/

/-- The zero offsets of a whole block, as the constant function. -/
theorem hz : (![0, 0] : Fin 2 → Nat) = fun _ => 0 := funext fun a => by fin_cases a <;> rfl

/-- The raw-score block: its one store covers the block and every load reads a whole block, so what is left is
    the last layer's value of the second layer's pre-activation of the blocks themselves. -/
theorem out_raw_eq (x0 x1 : Mat 1024 1024) (x2 : Mat 1024 1) (x3 x4 : Mat 64 1024) (x5 : Mat 1 64) (x6 : Mat 32 64)
    (x7 x8 : Mat 1 32) (x9 : Mat 1 1) :
    out2_11 (F := Ideal) x0 x1 x2 x3 x4 x5 x6 x7 x8 x9
      = k2_pay1 (F := Ideal) (k2_pay3 (F := Ideal) x2 x0 x1 x3 x4 x5) (Scalar.ofBits .f32 0x00000000#32) x6 x7 x8 x9 := by
  unfold out2_11
  rw [View.canon_unit_zero hz]
  simp only [View.ld_unit_zero (S := S1024x1024) hz, View.ld_unit_zero (S := S1024x1) hz,
    View.ld_unit_zero (S := S64x1024) hz, View.ld_unit_zero (S := S1x64) hz, View.ld_unit_zero (S := S32x64) hz,
    View.ld_unit_zero (S := S1x32) hz, View.ld_unit_zero (S := S1x1) hz]

/-- The logistic block, likewise: the logistic of the same value. -/
theorem out_sig_eq (x0 x1 : Mat 1024 1024) (x2 : Mat 1024 1) (x3 x4 : Mat 64 1024) (x5 : Mat 1 64) (x6 : Mat 32 64)
    (x7 x8 : Mat 1 32) (x9 : Mat 1 1) :
    out2_10 (F := Ideal) x0 x1 x2 x3 x4 x5 x6 x7 x8 x9
      = k2_pay2 (F := Ideal) (k2_pay3 (F := Ideal) x2 x0 x1 x3 x4 x5) (Scalar.ofBits .f32 0x00000000#32) x6 x7 x8 x9 := by
  unfold out2_10
  rw [View.canon_unit_zero hz]
  simp only [View.ld_unit_zero (S := S1024x1024) hz, View.ld_unit_zero (S := S1024x1) hz,
    View.ld_unit_zero (S := S64x1024) hz, View.ld_unit_zero (S := S1x64) hz, View.ld_unit_zero (S := S32x64) hz,
    View.ld_unit_zero (S := S1x32) hz, View.ld_unit_zero (S := S1x1) hz]

/-! ## Clipping, and the first hidden layer, at an entry -/

/-- The maximum with the word of 0 everywhere, then the minimum with the word of 1 everywhere, is `clip01` of the
    entry. -/
theorem clip_apply {a b : ℕ} (v : FVec Ideal ⟨2, ![a, b]⟩ .f32) (j : (⟨2, ![a, b]⟩ : Shape).Idx) :
    minimumf (broadcast ⟨2, ![a, b]⟩ (Scalar.ofBits (F := Ideal) .f32 0x3F800000#32))
      (maximumf (broadcast ⟨2, ![a, b]⟩ (Scalar.ofBits (F := Ideal) .f32 0x00000000#32)) v) j = clip01 (v j) := by
  show min (Ideal.ofBits .f32 0x3F800000#32) (max (Ideal.ofBits .f32 0x00000000#32) (v j)) = _
  rw [ofBits_zero, ofBits_one]; rfl

/-- The mix of two matrices by a column `s` spread along the rows: at (p, k) it is `s p * a p k + (1 - s p) * b p k`. -/
theorem mix_apply (s : Mat 1024 1) (a b : Mat 1024 1024)
    (h : (⟨2, ![1024, 1]⟩ : Shape).Broadcasts ⟨2, ![1024, 1024]⟩) (p k : Fin 1024) :
    addf (mulf (broadcastTo ⟨2, ![1024, 1024]⟩ s h) a)
        (mulf (broadcastTo ⟨2, ![1024, 1024]⟩
          (subf (broadcast ⟨2, ![1024, 1]⟩ (Scalar.ofBits (F := Ideal) .f32 0x3F800000#32)) s) h) b) (ix2 p k)
      = s (ix2 p (0 : Fin 1)) * a (ix2 p k) + (1 - s (ix2 p (0 : Fin 1))) * b (ix2 p k) := by
  show broadcastTo _ s h (ix2 p k) * a (ix2 p k) + broadcastTo _ (subf _ s) h (ix2 p k) * b (ix2 p k) = _
  rw [Cert.ColumnForms.broadcastTo_a1_ab_apply, Cert.ColumnForms.broadcastTo_a1_ab_apply]
  show _ * _ + (Ideal.ofBits .f32 0x3F800000#32 - _) * _ = _
  rw [ofBits_one]

/-- The clipped mix at (p, k) is one half of the first hidden layer on row p (the other half exchanges `a` and `b`). -/
theorem hid1_apply (s : Mat 1024 1) (a b : Mat 1024 1024)
    (h : (⟨2, ![1024, 1]⟩ : Shape).Broadcasts ⟨2, ![1024, 1024]⟩) (p k : Fin 1024) :
    minimumf (broadcast ⟨2, ![1024, 1024]⟩ (Scalar.ofBits (F := Ideal) .f32 0x3F800000#32))
      (maximumf (broadcast ⟨2, ![1024, 1024]⟩ (Scalar.ofBits (F := Ideal) .f32 0x00000000#32))
        (addf (mulf (broadcastTo ⟨2, ![1024, 1024]⟩ s h) a)
          (mulf (broadcastTo ⟨2, ![1024, 1024]⟩
            (subf (broadcast ⟨2, ![1024, 1]⟩ (Scalar.ofBits (F := Ideal) .f32 0x3F800000#32)) s) h) b))) (ix2 p k)
      = hid1 (s (ix2 p (0 : Fin 1))) (fun k => a (ix2 p k)) (fun k => b (ix2 p k)) k :=
  (clip_apply _ _).trans (congrArg clip01 (mix_apply s a b h p k))

/-! ## The second layer before its clip, at (p, r) -/

/-- Both halves of the first hidden layer of row p against rows r of the two halves of the weight, plus the bias at
    r: the argument of `hid2`'s clip. -/
theorem pay3_apply (x2 : Mat 1024 1) (x0 x1 : Mat 1024 1024) (x3 x4 : Mat 64 1024) (x5 : Mat 1 64)
    (p : Fin 1024) (r : Fin 64) :
    k2_pay3 (F := Ideal) x2 x0 x1 x3 x4 x5 (ix2 p r)
      = ((∑ k : Fin 1024, hid1 (x2 (ix2 p (0 : Fin 1))) (fun k => x0 (ix2 p k)) (fun k => x1 (ix2 p k)) k * x3 (ix2 r k))
          + (∑ k : Fin 1024, hid1 (x2 (ix2 p (0 : Fin 1))) (fun k => x1 (ix2 p k)) (fun k => x0 (ix2 p k)) k * x4 (ix2 r k)))
        + x5 (ix2 (0 : Fin 1) r) := by
  unfold k2_pay3
  simp only [shapeCast_self]
  refine (addf_apply _ _ _).trans (congrArg₂ (· + ·) ((addf_apply _ _ _).trans (congrArg₂ (· + ·) ?_ ?_)) ?_)
  · refine (Cert.MatmulRows.matmul_rows_apply dot_S1024x1024_S64x1024_S1024x64_1_1_0_0_n_n none rfl rfl rfl rfl rfl rfl
      _ _ p r).trans ?_
    exact Finset.sum_congr rfl fun k _ => congrArg (· * x3 (ix2 r k)) (hid1_apply x2 x0 x1 _ p k)
  · refine (Cert.MatmulRows.matmul_rows_apply dot_S1024x1024_S64x1024_S1024x64_1_1_0_0_n_n none rfl rfl rfl rfl rfl rfl
      _ _ p r).trans ?_
    exact Finset.sum_congr rfl fun k _ => congrArg (· * x4 (ix2 r k)) (hid1_apply x2 x1 x0 _ p k)
  · exact broadcastTo_1b_ab_apply x5 _ p r

/-! ## The last two layers, from any second-layer pre-activation -/

/-- From a pre-activation `v` of the second layer: clip it, take row p against row q of the second weight plus its
    bias, clip, weigh by the last weight and sum over q, and add the last bias. The column's unit coordinate
    carries nothing. -/
theorem pay1_apply (v37 : Mat 1024 64) (x6 : Mat 32 64) (x7 x8 : Mat 1 32) (x9 : Mat 1 1) (p : Fin 1024) (u : Fin 1) :
    k2_pay1 (F := Ideal) v37 (Scalar.ofBits .f32 0x00000000#32) x6 x7 x8 x9 (ix2 p u)
      = (∑ q : Fin 32, clip01 ((∑ r : Fin 64, clip01 (v37 (ix2 p r)) * x6 (ix2 q r)) + x7 (ix2 (0 : Fin 1) q))
            * x8 (ix2 (0 : Fin 1) q))
        + x9 (ix2 (0 : Fin 1) (0 : Fin 1)) := by
  obtain rfl : u = 0 := Subsingleton.elim _ _
  unfold k2_pay1
  simp only [shapeCast_self]
  refine (addf_apply _ _ _).trans (congrArg₂ (· + ·) ?_ (broadcastTo_1b_ab_apply x9 _ p (0 : Fin 1)))
  refine (Cert.ColumnForms.shapeCast_a_a1_apply _ _ p (0 : Fin 1)).trans ?_
  refine (Cert.AxisReads.sum_cols _ _ p).trans ?_
  refine Finset.sum_congr rfl fun q _ => ?_
  refine (mulf_apply _ _ _).trans (congrArg₂ (· * ·) ?_ (broadcastTo_1b_ab_apply x8 _ p q))
  refine (clip_apply _ _).trans (congrArg clip01 ?_)
  refine (addf_apply _ _ _).trans (congrArg₂ (· + ·) ?_ (broadcastTo_1b_ab_apply x7 _ p q))
  refine (Cert.MatmulRows.matmul_rows_apply dot_S1024x64_S32x64_S1024x32_1_1_0_0_n_n none rfl rfl rfl rfl rfl rfl
    _ _ p q).trans ?_
  exact Finset.sum_congr rfl fun r _ => congrArg (· * x6 (ix2 q r)) (clip_apply _ _)

/-- The two together: the body's raw score at row p is `raw` of row p of the blocks. -/
theorem pay_raw (x0 x1 : Mat 1024 1024) (x2 : Mat 1024 1) (x3 x4 : Mat 64 1024) (x5 : Mat 1 64) (x6 : Mat 32 64)
    (x7 x8 : Mat 1 32) (x9 : Mat 1 1) (p : Fin 1024) (u : Fin 1) :
    k2_pay1 (F := Ideal) (k2_pay3 (F := Ideal) x2 x0 x1 x3 x4 x5) (Scalar.ofBits .f32 0x00000000#32) x6 x7 x8 x9 (ix2 p u)
      = raw (x2 (ix2 p (0 : Fin 1))) (fun k => x0 (ix2 p k)) (fun k => x1 (ix2 p k)) (fun r k => x3 (ix2 r k))
          (fun r k => x4 (ix2 r k)) (fun r => x5 (ix2 (0 : Fin 1) r)) (fun q r => x6 (ix2 q r))
          (fun q => x7 (ix2 (0 : Fin 1) q)) (fun q => x8 (ix2 (0 : Fin 1) q)) (x9 (ix2 (0 : Fin 1) (0 : Fin 1))) := by
  refine (pay1_apply _ x6 x7 x8 x9 p u).trans ?_
  simp only [pay3_apply]
  rfl

/-! ## The two output blocks at an entry -/

/-- The raw-score block at (p, u) is the specification's raw score of row p. -/
theorem out_raw_apply (x0 x1 : Mat 1024 1024) (x2 : Mat 1024 1) (x3 x4 : Mat 64 1024) (x5 : Mat 1 64) (x6 : Mat 32 64)
    (x7 x8 : Mat 1 32) (x9 : Mat 1 1) (p : Fin 1024) (u : Fin 1) :
    Cert.KernelIdeal.Gen.out2_11 (F := Ideal) x0 x1 x2 x3 x4 x5 x6 x7 x8 x9 (ix2 p u)
      = Cert.Nnue.raw (x2 (ix2 p (0 : Fin 1))) (fun k => x0 (ix2 p k)) (fun k => x1 (ix2 p k)) (fun r k => x3 (ix2 r k))
          (fun r k => x4 (ix2 r k)) (fun r => x5 (ix2 (0 : Fin 1) r)) (fun q r => x6 (ix2 q r))
          (fun q => x7 (ix2 (0 : Fin 1) q)) (fun q => x8 (ix2 (0 : Fin 1) q)) (x9 (ix2 (0 : Fin 1) (0 : Fin 1))) :=
  (congrFun (out_raw_eq x0 x1 x2 x3 x4 x5 x6 x7 x8 x9) (ix2 p u)).trans (pay_raw x0 x1 x2 x3 x4 x5 x6 x7 x8 x9 p u)

/-- The logistic block at (p, u) is the logistic of that score. -/
theorem out_sig_apply (x0 x1 : Mat 1024 1024) (x2 : Mat 1024 1) (x3 x4 : Mat 64 1024) (x5 : Mat 1 64) (x6 : Mat 32 64)
    (x7 x8 : Mat 1 32) (x9 : Mat 1 1) (p : Fin 1024) (u : Fin 1) :
    Cert.KernelIdeal.Gen.out2_10 (F := Ideal) x0 x1 x2 x3 x4 x5 x6 x7 x8 x9 (ix2 p u)
      = Cert.Nnue.sig (x2 (ix2 p (0 : Fin 1))) (fun k => x0 (ix2 p k)) (fun k => x1 (ix2 p k)) (fun r k => x3 (ix2 r k))
          (fun r k => x4 (ix2 r k)) (fun r => x5 (ix2 (0 : Fin 1) r)) (fun q r => x6 (ix2 q r))
          (fun q => x7 (ix2 (0 : Fin 1) q)) (fun q => x8 (ix2 (0 : Fin 1) q)) (x9 (ix2 (0 : Fin 1) (0 : Fin 1))) :=
  (congrFun (out_sig_eq x0 x1 x2 x3 x4 x5 x6 x7 x8 x9) (ix2 p u)).trans
    (congrArg Ideal.logistic (pay_raw x0 x1 x2 x3 x4 x5 x6 x7 x8 x9 p u))

end Cert.Nnue.HeadBody

end
-- ==== Proof.HeadFinal.lean ====
/-
  What the head's launch leaves in its two result columns.

  At point `t` the body turns the point's blocks into the two result blocks; by the body's value at an entry, entry
  `(p, 0)` of a result block is the head's score (or its logistic) of row `p` of the accumulator blocks — row
  `1024 t + p` of the arrays — and of the parameter arrays, which every point sees whole. That is block `t` of one
  column over the arrays, the blocks cover the column, so each result array ends at that column.
-/
import proofs.«121477_j42820823941279_2_alg».proof.Proof.HeadReads
import proofs.«121477_j42820823941279_2_alg».proof.Proof.HeadBody

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.HeadFinal

open Cert.KernelIdeal Cert.KernelIdeal.Gen Cert.Nnue Cert.KernelIdeal.HeadReads

variable (V : (c : Dev nD) → (b : Ref sig .tc) → Buf (Elt Ideal) ((c : Thread nD τ).loc b))

/-- The head's ten arrays as the launch finds them, as matrices of extended reals. -/
abbrev A0 (c : Dev nD) : Mat 4096 1024 := V c main_v1
abbrev A1 (c : Dev nD) : Mat 4096 1024 := V c main_v2
abbrev SA (c : Dev nD) : Mat 4096 1 := V c main_arg2
abbrev UA (c : Dev nD) : Mat 64 1024 := V c main_v3
abbrev VA (c : Dev nD) : Mat 64 1024 := V c main_v4
abbrev C1 (c : Dev nD) : Mat 1 64 := V c main_v5
abbrev W2A (c : Dev nD) : Mat 32 64 := V c main_arg7
abbrev C2 (c : Dev nD) : Mat 1 32 := V c main_v6
abbrev W3A (c : Dev nD) : Mat 1 32 := V c main_arg9
abbrev C3 (c : Dev nD) : Mat 1 1 := V c main_v7

/-- The head's score and its logistic depend on their ten arguments only. -/
theorem raw_congr {s s' : EReal} {a a' b b' : Fin 1024 → EReal} {U U' Vh Vh' : Fin 64 → Fin 1024 → EReal}
    {c1 c1' : Fin 64 → EReal} {W2 W2' : Fin 32 → Fin 64 → EReal} {c2 c2' w3 w3' : Fin 32 → EReal} {c3 c3' : EReal}
    (hs : s = s') (ha : a = a') (hb : b = b') (hU : U = U') (hV : Vh = Vh') (h1 : c1 = c1') (hW : W2 = W2')
    (h2 : c2 = c2') (h3 : w3 = w3') (h4 : c3 = c3') :
    Nnue.raw s a b U Vh c1 W2 c2 w3 c3 = Nnue.raw s' a' b' U' Vh' c1' W2' c2' w3' c3' := by
  subst hs ha hb hU hV h1 hW h2 h3 h4; rfl

/-- The ten blocks at point `t`, read at row `p`, are the arrays read at row `1024 t + p`. -/
theorem raw_blocks (c : Dev nD) (t : Fin cfg2.N) (p : Fin 1024) (r : Fin 4096) (hr : r.val = 1024 * t.val + p.val) :
    Nnue.raw ((iblk2 V c 2 t : Mat 1024 1) (ix2 p (0 : Fin 1))) (fun k => (iblk2 V c 0 t : Mat 1024 1024) (ix2 p k))
        (fun k => (iblk2 V c 1 t : Mat 1024 1024) (ix2 p k)) (fun r k => (iblk2 V c 3 t : Mat 64 1024) (ix2 r k))
        (fun r k => (iblk2 V c 4 t : Mat 64 1024) (ix2 r k)) (fun r => (iblk2 V c 5 t : Mat 1 64) (ix2 (0 : Fin 1) r))
        (fun q r => (iblk2 V c 6 t : Mat 32 64) (ix2 q r)) (fun q => (iblk2 V c 7 t : Mat 1 32) (ix2 (0 : Fin 1) q))
        (fun q => (iblk2 V c 8 t : Mat 1 32) (ix2 (0 : Fin 1) q)) ((iblk2 V c 9 t : Mat 1 1) (ix2 (0 : Fin 1) (0 : Fin 1)))
      = headRaw (A0 V c) (A1 V c) (SA V c) (UA V c) (VA V c) (C1 V c) (W2A V c) (C2 V c) (W3A V c) (C3 V c) (ix2 r (0 : Fin 1)) := by
  rw [headRaw_apply]
  exact raw_congr (blk2 V c t p 0 r hr) (funext fun k => blk0 V c t p k r hr) (funext fun k => blk1 V c t p k r hr)
    (funext fun a => funext fun k => blk3 V c t a k) (funext fun a => funext fun k => blk4 V c t a k)
    (funext fun a => blk5 V c t 0 a) (funext fun q => funext fun a => blk6 V c t q a) (funext fun q => blk7 V c t 0 q)
    (funext fun q => blk8 V c t 0 q) (blk9 V c t 0 0)

/-- What point `t` writes back into the raw-score column is block `t` of `headRaw` of the arrays. -/
theorem flushed_raw (c : Dev nD) (t : Fin cfg2.N) (hf : (cfg2.win 11).flush t = true) :
    (dat2 V c).flushed 11 t = ((cfg2.win 11).blk t).view.read (Elt Ideal) (headRaw (A0 V c) (A1 V c) (SA V c) (UA V c) (VA V c) (C1 V c) (W2A V c) (C2 V c) (W3A V c) (C3 V c)) := by
  show (cfg2.win 11).cut (grid2.coords t) ((dat2 V c).after 11 t) = _
  rw [after2_11]
  funext y
  obtain ⟨p, u, rfl⟩ : ∃ (p : Fin 1024) (u : Fin 1), y = ix2 p u := ⟨y 0, y 1, eq_ix2 y⟩
  have hp : p.val < 1024 := p.isLt
  have ht : t.val < 4 := lt_of_lt_of_eq t.isLt (show cfg2.N = 4 from N_2)
  have hr : 1024 * t.val + p.val < 4096 := by omega
  show out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (ix2 p u) = headRaw (A0 V c) (A1 V c) (SA V c) (UA V c) (VA V c) (C1 V c) (W2A V c) (C2 V c) (W3A V c) (C3 V c) (((cfg2.win 11).blk t).view.emb (ix2 p u))
  rw [emb11 t p u ⟨1024 * t.val + p.val, hr⟩ rfl]
  exact (HeadBody.out_raw_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) p u).trans (raw_blocks V c t p ⟨1024 * t.val + p.val, hr⟩ rfl)

/-- The same for the logistic column. -/
theorem flushed_sig (c : Dev nD) (t : Fin cfg2.N) (hf : (cfg2.win 10).flush t = true) :
    (dat2 V c).flushed 10 t = ((cfg2.win 10).blk t).view.read (Elt Ideal) (headSig (A0 V c) (A1 V c) (SA V c) (UA V c) (VA V c) (C1 V c) (W2A V c) (C2 V c) (W3A V c) (C3 V c)) := by
  show (cfg2.win 10).cut (grid2.coords t) ((dat2 V c).after 10 t) = _
  rw [after2_10]
  funext y
  obtain ⟨p, u, rfl⟩ : ∃ (p : Fin 1024) (u : Fin 1), y = ix2 p u := ⟨y 0, y 1, eq_ix2 y⟩
  have hp : p.val < 1024 := p.isLt
  have ht : t.val < 4 := lt_of_lt_of_eq t.isLt (show cfg2.N = 4 from N_2)
  have hr : 1024 * t.val + p.val < 4096 := by omega
  show out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (ix2 p u) = headSig (A0 V c) (A1 V c) (SA V c) (UA V c) (VA V c) (C1 V c) (W2A V c) (C2 V c) (W3A V c) (C3 V c) (((cfg2.win 10).blk t).view.emb (ix2 p u))
  rw [emb10 t p u ⟨1024 * t.val + p.val, hr⟩ rfl]
  refine (HeadBody.out_sig_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) p u).trans ?_
  show Ideal.logistic _ = Ideal.logistic _
  exact congrArg Ideal.logistic (raw_blocks V c t p ⟨1024 * t.val + p.val, hr⟩ rfl)

/-- The raw-score array ends at the column `headRaw` of the arrays as the launch finds them. -/
theorem final_raw (c : Dev nD) : (dat2 V c).arrAt 11 cfg2.N = headRaw (A0 V c) (A1 V c) (SA V c) (UA V c) (VA V c) (C1 V c) (W2A V c) (C2 V c) (W3A V c) (C3 V c) :=
  (dat2 V c).arrAt_eq_of_cover 11 (headRaw (A0 V c) (A1 V c) (SA V c) (UA V c) (VA V c) (C1 V c) (W2A V c) (C2 V c) (W3A V c) (C3 V c)) (flushed_raw V c) (cover11)

/-- The logistic array ends at the column `headSig`. -/
theorem final_sig (c : Dev nD) : (dat2 V c).arrAt 10 cfg2.N = headSig (A0 V c) (A1 V c) (SA V c) (UA V c) (VA V c) (C1 V c) (W2A V c) (C2 V c) (W3A V c) (C3 V c) :=
  (dat2 V c).arrAt_eq_of_cover 10 (headSig (A0 V c) (A1 V c) (SA V c) (UA V c) (VA V c) (C1 V c) (W2A V c) (C2 V c) (W3A V c) (C3 V c)) (flushed_sig V c) (cover10)

end Cert.KernelIdeal.HeadFinal

end
-- ==== Proof.HeadLayout.lean ====
/-
  The head's columns over the arrays it finds are the network's columns over the launched arguments.

  The head finds the two accumulators as `X · Wᵀ + b` with the bias given as a row, the first weight as its two
  column halves, and each bias vector recast to a row. Read at an entry, a vector recast to one row is the vector, and
  a half of the weight's columns is the weight at column `k` or `1024 + k`; with that, the head's score of row `i`
  over those arrays is the network's raw score of position `i` over the eleven arguments, and likewise its logistic.
-/
import proofs.«121477_j42820823941279_2_alg».proof.Proof.HeadReads
import proofs.«121477_j42820823941279_2_alg».proof.Proof.FtAcc0
import Idealize.ShloMosaic.Lib.ValueLayout

noncomputable section

open scoped BigOperators
open Idealize.ShloMosaic Idealize.ShloMosaic.ValueIdx

namespace Cert.KernelIdeal.HeadLayout

open Cert.KernelIdeal Cert.Nnue Cert.KernelIdeal.HeadReads

/-- Row `i` of `X · Wᵀ + b` with the bias recast to a row is the feature transformer's row. -/
theorem acc_row (X : Mat 4096 40960) (W : Mat 1024 40960) (b : Vc 1024)
    (hb : (⟨1, ![1024]⟩ : Shape).ShapeCasts ⟨2, ![1, 1024]⟩) (i : Fin 4096) :
    (fun k => FtAcc0.ftOut X W (shapeCast ⟨2, ![1, 1024]⟩ b hb) (ix2 i k)) = fun k => Nnue.ft X W b i k := by
  funext k
  rw [FtAcc0.ftOut_apply, shapeCast_a_1a_apply b hb 0 k]
  rfl

/-- The head's raw score of row `i` over the arrays it finds is the network's raw score of position `i`. -/
theorem raw_row (Xw Xb : Mat 4096 40960) (stm : Mat 4096 1) (Wt : Mat 1024 40960) (bt : Vc 1024) (W1 : Mat 64 2048)
    (b1 : Vc 64) (W2 : Mat 32 64) (b2 : Vc 32) (W3 : Mat 1 32) (b3 : Vc 1)
    (hb : (⟨1, ![1024]⟩ : Shape).ShapeCasts ⟨2, ![1, 1024]⟩)
    (hlo : (⟨2, ![64, 2048]⟩ : Shape).Slices ![0, 0] ⟨2, ![64, 1024]⟩)
    (hhi : (⟨2, ![64, 2048]⟩ : Shape).Slices ![0, 1024] ⟨2, ![64, 1024]⟩)
    (h1 : (⟨1, ![64]⟩ : Shape).ShapeCasts ⟨2, ![1, 64]⟩) (h2 : (⟨1, ![32]⟩ : Shape).ShapeCasts ⟨2, ![1, 32]⟩)
    (h3 : (⟨1, ![1]⟩ : Shape).ShapeCasts ⟨2, ![1, 1]⟩) (i : Fin 4096) :
    headRaw (FtAcc0.ftOut Xw Wt (shapeCast ⟨2, ![1, 1024]⟩ bt hb)) (FtAcc0.ftOut Xb Wt (shapeCast ⟨2, ![1, 1024]⟩ bt hb)) stm
      (extractStridedSlice ⟨2, ![64, 1024]⟩ ![0, 0] W1 hlo) (extractStridedSlice ⟨2, ![64, 1024]⟩ ![0, 1024] W1 hhi)
      (shapeCast ⟨2, ![1, 64]⟩ b1 h1) W2 (shapeCast ⟨2, ![1, 32]⟩ b2 h2) W3 (shapeCast ⟨2, ![1, 1]⟩ b3 h3) (ix2 i (0 : Fin 1))
      = rawAt Xw Xb stm Wt bt W1 b1 W2 b2 W3 b3 i := by
  rw [headRaw_apply, acc_row Xw Wt bt hb i, acc_row Xb Wt bt hb i]
  unfold rawAt
  have eU : (fun (r : Fin 64) (k : Fin 1024) => extractStridedSlice ⟨2, ![64, 1024]⟩ ![0, 0] W1 hlo (ix2 r k))
      = fun r k => W1 (ix2 r (lo k)) :=
    funext fun r => funext fun k => slice2_axis1_apply 0 W1 hlo r k (lo k) (by show k.val = 0 + k.val; omega)
  have eV : (fun (r : Fin 64) (k : Fin 1024) => extractStridedSlice ⟨2, ![64, 1024]⟩ ![0, 1024] W1 hhi (ix2 r k))
      = fun r k => W1 (ix2 r (hi k)) :=
    funext fun r => funext fun k => slice2_axis1_apply 1024 W1 hhi r k (hi k) rfl
  have e1 : (fun r : Fin 64 => shapeCast ⟨2, ![1, 64]⟩ b1 h1 (ix2 (0 : Fin 1) r)) = fun r => b1 (ix1 r) :=
    funext fun r => shapeCast_a_1a_apply b1 h1 0 r
  have e2 : (fun q : Fin 32 => shapeCast ⟨2, ![1, 32]⟩ b2 h2 (ix2 (0 : Fin 1) q)) = fun q => b2 (ix1 q) :=
    funext fun q => shapeCast_a_1a_apply b2 h2 0 q
  have e3 : shapeCast ⟨2, ![1, 1]⟩ b3 h3 (ix2 (0 : Fin 1) (0 : Fin 1)) = b3 (ix1 (0 : Fin 1)) :=
    shapeCast_a_1a_apply b3 h3 0 0
  rw [eU, eV, e1, e2, e3]

/-- The raw-score column. -/
theorem raw_col (Xw Xb : Mat 4096 40960) (stm : Mat 4096 1) (Wt : Mat 1024 40960) (bt : Vc 1024) (W1 : Mat 64 2048)
    (b1 : Vc 64) (W2 : Mat 32 64) (b2 : Vc 32) (W3 : Mat 1 32) (b3 : Vc 1)
    (hb : (⟨1, ![1024]⟩ : Shape).ShapeCasts ⟨2, ![1, 1024]⟩)
    (hlo : (⟨2, ![64, 2048]⟩ : Shape).Slices ![0, 0] ⟨2, ![64, 1024]⟩)
    (hhi : (⟨2, ![64, 2048]⟩ : Shape).Slices ![0, 1024] ⟨2, ![64, 1024]⟩)
    (h1 : (⟨1, ![64]⟩ : Shape).ShapeCasts ⟨2, ![1, 64]⟩) (h2 : (⟨1, ![32]⟩ : Shape).ShapeCasts ⟨2, ![1, 32]⟩)
    (h3 : (⟨1, ![1]⟩ : Shape).ShapeCasts ⟨2, ![1, 1]⟩) :
    headRaw (FtAcc0.ftOut Xw Wt (shapeCast ⟨2, ![1, 1024]⟩ bt hb)) (FtAcc0.ftOut Xb Wt (shapeCast ⟨2, ![1, 1024]⟩ bt hb)) stm
      (extractStridedSlice ⟨2, ![64, 1024]⟩ ![0, 0] W1 hlo) (extractStridedSlice ⟨2, ![64, 1024]⟩ ![0, 1024] W1 hhi)
      (shapeCast ⟨2, ![1, 64]⟩ b1 h1) W2 (shapeCast ⟨2, ![1, 32]⟩ b2 h2) W3 (shapeCast ⟨2, ![1, 1]⟩ b3 h3)
      = rawArr Xw Xb stm Wt bt W1 b1 W2 b2 W3 b3 :=
  col_ext fun i => (raw_row Xw Xb stm Wt bt W1 b1 W2 b2 W3 b3 hb hlo hhi h1 h2 h3 i).trans
    (rawArr_apply Xw Xb stm Wt bt W1 b1 W2 b2 W3 b3 i 0).symm

/-- The logistic column. -/
theorem sig_col (Xw Xb : Mat 4096 40960) (stm : Mat 4096 1) (Wt : Mat 1024 40960) (bt : Vc 1024) (W1 : Mat 64 2048)
    (b1 : Vc 64) (W2 : Mat 32 64) (b2 : Vc 32) (W3 : Mat 1 32) (b3 : Vc 1)
    (hb : (⟨1, ![1024]⟩ : Shape).ShapeCasts ⟨2, ![1, 1024]⟩)
    (hlo : (⟨2, ![64, 2048]⟩ : Shape).Slices ![0, 0] ⟨2, ![64, 1024]⟩)
    (hhi : (⟨2, ![64, 2048]⟩ : Shape).Slices ![0, 1024] ⟨2, ![64, 1024]⟩)
    (h1 : (⟨1, ![64]⟩ : Shape).ShapeCasts ⟨2, ![1, 64]⟩) (h2 : (⟨1, ![32]⟩ : Shape).ShapeCasts ⟨2, ![1, 32]⟩)
    (h3 : (⟨1, ![1]⟩ : Shape).ShapeCasts ⟨2, ![1, 1]⟩) :
    headSig (FtAcc0.ftOut Xw Wt (shapeCast ⟨2, ![1, 1024]⟩ bt hb)) (FtAcc0.ftOut Xb Wt (shapeCast ⟨2, ![1, 1024]⟩ bt hb)) stm
      (extractStridedSlice ⟨2, ![64, 1024]⟩ ![0, 0] W1 hlo) (extractStridedSlice ⟨2, ![64, 1024]⟩ ![0, 1024] W1 hhi)
      (shapeCast ⟨2, ![1, 64]⟩ b1 h1) W2 (shapeCast ⟨2, ![1, 32]⟩ b2 h2) W3 (shapeCast ⟨2, ![1, 1]⟩ b3 h3)
      = sigArr Xw Xb stm Wt bt W1 b1 W2 b2 W3 b3 :=
  col_ext fun i => by
    rw [sigArr_apply]
    show Ideal.logistic (headRaw (FtAcc0.ftOut Xw Wt (shapeCast ⟨2, ![1, 1024]⟩ bt hb)) (FtAcc0.ftOut Xb Wt (shapeCast ⟨2, ![1, 1024]⟩ bt hb)) stm
      (extractStridedSlice ⟨2, ![64, 1024]⟩ ![0, 0] W1 hlo) (extractStridedSlice ⟨2, ![64, 1024]⟩ ![0, 1024] W1 hhi)
      (shapeCast ⟨2, ![1, 64]⟩ b1 h1) W2 (shapeCast ⟨2, ![1, 32]⟩ b2 h2) W3 (shapeCast ⟨2, ![1, 1]⟩ b3 h3) (ix2 i (0 : Fin 1))) = sigAt Xw Xb stm Wt bt W1 b1 W2 b2 W3 b3 i
    rw [raw_row Xw Xb stm Wt bt W1 b1 W2 b2 W3 b3 hb hlo hhi h1 h2 h3 i]
    rfl

end Cert.KernelIdeal.HeadLayout

end
-- ==== Proof.KernelValue.lean ====
/-
  The kernel program's two results are the network's two columns of its arguments.

  The logistic column is the head's first result array, the raw-score column its second. Each ends at the head's
  column over the arrays the head finds; those arrays are the two launches' `X · Wᵀ + b`, the side to move and the
  re-laid parameters of the launched arguments; and the head's columns over those are the network's columns.
-/
import proofs.«121477_j42820823941279_2_alg».proof.Proof.KernelRun
import proofs.«121477_j42820823941279_2_alg».proof.Proof.Boundary
import proofs.«121477_j42820823941279_2_alg».proof.Proof.HeadFinal
import proofs.«121477_j42820823941279_2_alg».proof.Proof.HeadLayout

set_option maxRecDepth 16384

noncomputable section

open Idealize.ShloMosaic Idealize.ShloMosaic.TcCoe Idealize.SL.Sem Idealize.ShloMosaic.ValueIdx

namespace Cert.KernelIdeal.Result

open Cert.KernelIdeal Cert.KernelIdeal.Gen Cert.Nnue Cert.KernelIdeal.HeadReads

variable (m : (ℓ : Loc nD τ sig) → Buf (Elt Ideal) ℓ) (ρ : Dev nD → PrngReg)

/-- The head's ten arrays, traced back to the launched arguments, inside its logistic column. -/
theorem sig_result (c : Dev nD) : W5 m ρ c (Proc.devRef .tc main_v8_0)
    = sigArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W5_arr m ρ c 10).trans ((HeadFinal.final_sig (V4 m ρ) c).trans ?_)
  show headSig (V4 m ρ c main_v1) (V4 m ρ c main_v2) (V4 m ρ c main_arg2) (V4 m ρ c main_v3) (V4 m ρ c main_v4)
    (V4 m ρ c main_v5) (V4 m ρ c main_arg7) (V4 m ρ c main_v6) (V4 m ρ c main_arg9) (V4 m ρ c main_v7) = _
  rw [Boundary.v4_acc0 m ρ c, Boundary.v4_acc1 m ρ c, Boundary.v4_stm m ρ c, Boundary.v4_w1lo m ρ c,
    Boundary.v4_w1hi m ρ c, Boundary.v4_b1 m ρ c, Boundary.v4_w2 m ρ c, Boundary.v4_b2 m ρ c, Boundary.v4_w3 m ρ c,
    Boundary.v4_b3 m ρ c]
  exact HeadLayout.sig_col _ _ _ _ _ _ _ _ _ _ _ _ _ _ _ _ _

/-- The same inside its raw-score column. -/
theorem raw_result (c : Dev nD) : W5 m ρ c (Proc.devRef .tc main_v8_1)
    = rawArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W5_arr m ρ c 11).trans ((HeadFinal.final_raw (V4 m ρ) c).trans ?_)
  show headRaw (V4 m ρ c main_v1) (V4 m ρ c main_v2) (V4 m ρ c main_arg2) (V4 m ρ c main_v3) (V4 m ρ c main_v4)
    (V4 m ρ c main_v5) (V4 m ρ c main_arg7) (V4 m ρ c main_v6) (V4 m ρ c main_arg9) (V4 m ρ c main_v7) = _
  rw [Boundary.v4_acc0 m ρ c, Boundary.v4_acc1 m ρ c, Boundary.v4_stm m ρ c, Boundary.v4_w1lo m ρ c,
    Boundary.v4_w1hi m ρ c, Boundary.v4_b1 m ρ c, Boundary.v4_w2 m ρ c, Boundary.v4_b2 m ρ c, Boundary.v4_w3 m ρ c,
    Boundary.v4_b3 m ρ c]
  exact HeadLayout.raw_col _ _ _ _ _ _ _ _ _ _ _ _ _ _ _ _ _

/-- Every weakly fair execution of the kernel program terminates with its first result at the logistic column and its
    second at the raw-score column of the launched arguments, which are unchanged. -/
theorem run : θ_run defs (onTc (τ := τ) (main (F := Ideal))) ⟨m, fun _ => 0, ρ⟩ (fun r => ∀ c : Dev nD,
      r.2.mem ((c.tc : Thread nD τ).loc main_v8_0) = sigArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v8_1) = rawArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (sig_result m ρ c), (h c).2.1.trans (raw_result m ρ c), (h c).2.2⟩)
    (Cert.KernelIdeal.Run.run_results m ρ)

end Cert.KernelIdeal.Result

end
-- ==== Proof.RefValue.lean ====
/-
  The reference program computes the network of the specification.

  Read outermost first, entry `(i, 0)` of the reference's raw score is
  `(∑ q, h₃ q · W₃(0, q)) + b₃`, with `h₃ q = clip ((∑ r, h₂ r · W₂(q, r)) + b₂ q)`,
  `h₂ r = clip ((∑ c, h₁ c · W₁(r, c)) + b₁ r)` over all 2048 columns `c`, and
  `h₁ c = clip (s · wb(i, c) + (1 - s) · bw(i, c))`, where `s` is the side to move of row `i`,
  `wb = [w | b]` and `bw = [b | w]` are the two accumulators `w = X_w · Wᵀ + b_t`, `b = X_b · Wᵀ + b_t`
  laid side by side in the two orders, and `clip x = min 1 (max 0 x)`.

  The specification writes the 2048-term sum as two 1024-term sums. Column `k` of the first half of `wb` is
  `w(i, k)` and of `bw` is `b(i, k)`, so there `h₁` is `hid1 s w b k`; column `1024 + k` exchanges them, so there
  `h₁` is `hid1 s b w k`. Splitting the sum at column 1024 is the only rearrangement: no finiteness of any
  entry is used. The second result is `1 / (1 + exp (-raw))`, which is the logistic by definition.

  Each stage below is one lemma at explicit coordinates; the index functions the imported generated module
  composes are identified with `ix1` / `ix2` coordinate by coordinate.
-/
import proofs.«121477_j42820823941279_2_alg».proof.Proof.Gen.ReferenceIdeal.Read
import proofs.«121477_j42820823941279_2_alg».proof.Proof.Spec

noncomputable section

open scoped BigOperators

namespace Cert.Nnue.RefValue

open Cert.Nnue Idealize.ShloMosaic Idealize.ShloMosaic.ValueIdx Cert.ReferenceIdeal.Read Cert.ReferenceIdeal Cert.ReferenceIdeal.Gen

variable (x0 x1 : Mat 4096 40960) (x2 : Mat 4096 1) (x3 : Mat 1024 40960) (x4 : Vc 1024) (x5 : Mat 64 2048)
  (x6 : Vc 64) (x7 : Mat 32 64) (x8 : Vc 32) (x9 : Mat 1 32) (x10 : Vc 1)

/-! ## The two accumulators -/

/-- Entry `(i, j)` of the white accumulator: row `i` of the features against row `j` of the weights, plus the
    bias at `j`. The transposed weights are read back at the exchanged coordinates. -/
theorem acc_white (i : Fin 4096) (j : Fin 1024) :
    val_main_v4 (F := Ideal) x0 x3 x4 (ix2 i j) = ft x0 x3 x4 i j := by
  have el : ∀ k : Fin 40960, lidx_main_v1 (ix2 i j) k = ix2 i k := fun k => funext fun a => Fin.ext (by match a with | ⟨0, _⟩ => rfl | ⟨1, _⟩ => rfl)
  have er : ∀ k : Fin 40960, idx_main_v0 (ridx_main_v1 (ix2 i j) k) = ix2 j k := fun k => funext fun a => Fin.ext (by match a with | ⟨0, _⟩ => rfl | ⟨1, _⟩ => rfl)
  have eb : idx_main_v2 (idx_main_v3 (ix2 i j)) = ix1 j := funext fun a => Fin.ext (by match a with | ⟨0, _⟩ => rfl)
  rw [val_main_v4_apply, val_main_v1_apply, val_main_v3_apply, val_main_v2_apply, eb]
  simp only [val_main_v0_apply, el, er, Ideal.addf_def]
  rfl

/-- The same entry of the black accumulator. -/
theorem acc_black (i : Fin 4096) (j : Fin 1024) :
    val_main_v9 (F := Ideal) x1 x3 x4 (ix2 i j) = ft x1 x3 x4 i j := by
  have el : ∀ k : Fin 40960, lidx_main_v6 (ix2 i j) k = ix2 i k := fun k => funext fun a => Fin.ext (by match a with | ⟨0, _⟩ => rfl | ⟨1, _⟩ => rfl)
  have er : ∀ k : Fin 40960, idx_main_v5 (ridx_main_v6 (ix2 i j) k) = ix2 j k := fun k => funext fun a => Fin.ext (by match a with | ⟨0, _⟩ => rfl | ⟨1, _⟩ => rfl)
  have eb : idx_main_v7 (idx_main_v8 (ix2 i j)) = ix1 j := funext fun a => Fin.ext (by match a with | ⟨0, _⟩ => rfl)
  rw [val_main_v9_apply, val_main_v6_apply, val_main_v8_apply, val_main_v7_apply, eb]
  simp only [val_main_v5_apply, el, er, Ideal.addf_def]
  rfl

/-! ## The two halves of a 2048-term sum -/

/-- A sum over 2048 columns is the sum over the first 1024 plus the sum over the last 1024: `2048 = 1024 + 1024`,
    and `lo k`, `hi k` are the two embeddings of `Fin 1024`. -/
theorem sum_halves (f : Fin 2048 → EReal) :
    ∑ c : Fin 2048, f c = (∑ k : Fin 1024, f (lo k)) + ∑ k : Fin 1024, f (hi k) :=
  Fin.sum_univ_add (a := 1024) (b := 1024) (M := EReal) f

/-! ## The two concatenations -/

/-- `[w | b]` at a column of the first half is `w` at that column. -/
theorem wb_lo (i : Fin 4096) (k : Fin 1024) :
    val_main_v10 (F := Ideal) x0 x1 x3 x4 (ix2 i (lo k)) = val_main_v4 (F := Ideal) x0 x3 x4 (ix2 i k) := by
  unfold val_main_v10
  generalize val_main_v4 (F := Ideal) x0 x3 x4 = A
  generalize val_main_v9 (F := Ideal) x1 x3 x4 = B
  exact concatenate_pair_apply_left (t := S4096x2048) (s₁ := S4096x1024) (s₂ := S4096x1024) 1 A B
    concatenates_S4096x1024_S4096x1024_S4096x2048_d1 (ix2 i (lo k)) rfl (ix2 i k) (fun b => by
    match b with
    | ⟨0, _⟩ => rfl
    | ⟨1, _⟩ => rfl)

/-- `[w | b]` at column `1024 + k` is `b` at column `k`. -/
theorem wb_hi (i : Fin 4096) (k : Fin 1024) :
    val_main_v10 (F := Ideal) x0 x1 x3 x4 (ix2 i (hi k)) = val_main_v9 (F := Ideal) x1 x3 x4 (ix2 i k) := by
  unfold val_main_v10
  generalize val_main_v4 (F := Ideal) x0 x3 x4 = A
  generalize val_main_v9 (F := Ideal) x1 x3 x4 = B
  exact concatenate_pair_apply_right (t := S4096x2048) (s₁ := S4096x1024) (s₂ := S4096x1024) 1 A B
    concatenates_S4096x1024_S4096x1024_S4096x2048_d1 (ix2 i (hi k)) rfl rfl (ix2 i k)
    (fun b hb => by
      match b with
      | ⟨0, _⟩ => rfl
      | ⟨1, _⟩ => exact absurd rfl hb)
    (Nat.add_comm k.val 1024)

/-- `[b | w]` at a column of the first half is `b` at that column. -/
theorem bw_lo (i : Fin 4096) (k : Fin 1024) :
    val_main_v11 (F := Ideal) x0 x1 x3 x4 (ix2 i (lo k)) = val_main_v9 (F := Ideal) x1 x3 x4 (ix2 i k) := by
  unfold val_main_v11
  generalize val_main_v4 (F := Ideal) x0 x3 x4 = A
  generalize val_main_v9 (F := Ideal) x1 x3 x4 = B
  exact concatenate_pair_apply_left (t := S4096x2048) (s₁ := S4096x1024) (s₂ := S4096x1024) 1 B A
    concatenates_S4096x1024_S4096x1024_S4096x2048_d1 (ix2 i (lo k)) rfl (ix2 i k) (fun b => by
    match b with
    | ⟨0, _⟩ => rfl
    | ⟨1, _⟩ => rfl)

/-- `[b | w]` at column `1024 + k` is `w` at column `k`. -/
theorem bw_hi (i : Fin 4096) (k : Fin 1024) :
    val_main_v11 (F := Ideal) x0 x1 x3 x4 (ix2 i (hi k)) = val_main_v4 (F := Ideal) x0 x3 x4 (ix2 i k) := by
  unfold val_main_v11
  generalize val_main_v4 (F := Ideal) x0 x3 x4 = A
  generalize val_main_v9 (F := Ideal) x1 x3 x4 = B
  exact concatenate_pair_apply_right (t := S4096x2048) (s₁ := S4096x1024) (s₂ := S4096x1024) 1 B A
    concatenates_S4096x1024_S4096x1024_S4096x2048_d1 (ix2 i (hi k)) rfl rfl (ix2 i k)
    (fun b hb => by
      match b with
      | ⟨0, _⟩ => rfl
      | ⟨1, _⟩ => exact absurd rfl hb)
    (Nat.add_comm k.val 1024)

/-! ## The first hidden layer -/

/-- Entry `(i, c)` of the clipped mixture, over the two concatenations. -/
theorem mixed (i : Fin 4096) (c : Fin 2048) :
    val_main_v19 (F := Ideal) x0 x1 x2 x3 x4 (ix2 i c)
      = clip01 (x2 (ix2 i (0 : Fin 1)) * val_main_v10 (F := Ideal) x0 x1 x3 x4 (ix2 i c)
          + (1 - x2 (ix2 i (0 : Fin 1))) * val_main_v11 (F := Ideal) x0 x1 x3 x4 (ix2 i c)) := by
  have e12 : idx_main_v12 (ix2 i c) = ix2 i (0 : Fin 1) := funext fun a => Fin.ext (by match a with | ⟨0, _⟩ => rfl | ⟨1, _⟩ => rfl)
  have e16 : idx_main_v16 (ix2 i c) = ix2 i (0 : Fin 1) := funext fun a => Fin.ext (by match a with | ⟨0, _⟩ => rfl | ⟨1, _⟩ => rfl)
  simp only [val_main_v19_apply, val_main_call0_v4_apply, val_main_call0_v3_apply, val_main_cst_1_apply,
    val_main_call0_v2_apply, val_main_call0_v1_apply, val_main_call0_v0_apply, val_main_cst_0_apply,
    val_main_v18_apply, val_main_v13_apply, val_main_v12_apply, val_main_v17_apply, val_main_v16_apply,
    val_main_v15_apply, val_main_v14_apply, val_main_cst_apply, e12, e16, Ideal.minimumf_def, Ideal.maximumf_def, Ideal.addf_def, Ideal.mulf_def, Ideal.subf_def, Ideal.ofBits_def, ofBits_zero, ofBits_one]
  rfl

/-- On the first half the mixture is `s · w + (1 - s) · b`. -/
theorem hid1_lo (i : Fin 4096) (k : Fin 1024) :
    val_main_v19 (F := Ideal) x0 x1 x2 x3 x4 (ix2 i (lo k))
      = hid1 (x2 (ix2 i (0 : Fin 1))) (fun k => ft x0 x3 x4 i k) (fun k => ft x1 x3 x4 i k) k := by
  rw [mixed, wb_lo, bw_lo, acc_white, acc_black]
  rfl

/-- On the second half the two accumulators are exchanged: `s · b + (1 - s) · w`. -/
theorem hid1_hi (i : Fin 4096) (k : Fin 1024) :
    val_main_v19 (F := Ideal) x0 x1 x2 x3 x4 (ix2 i (hi k))
      = hid1 (x2 (ix2 i (0 : Fin 1))) (fun k => ft x1 x3 x4 i k) (fun k => ft x0 x3 x4 i k) k := by
  rw [mixed, wb_hi, bw_hi, acc_white, acc_black]
  rfl

/-! ## The second hidden layer -/

/-- Entry `(i, r)` of the second layer: the 2048-term inner product against row `r` of the weights, split at
    column 1024 into the two halves the specification names, plus the bias, clipped. -/
theorem layer2 (i : Fin 4096) (r : Fin 64) :
    val_main_v25 (F := Ideal) x0 x1 x2 x3 x4 x5 x6 (ix2 i r)
      = hid2 (x2 (ix2 i (0 : Fin 1))) (fun k => ft x0 x3 x4 i k) (fun k => ft x1 x3 x4 i k)
          (fun r k => x5 (ix2 r (lo k))) (fun r k => x5 (ix2 r (hi k))) (fun r => x6 (ix1 r)) r := by
  have el : ∀ k : Fin 2048, lidx_main_v21 (ix2 i r) k = ix2 i k := fun k => funext fun a => Fin.ext (by match a with | ⟨0, _⟩ => rfl | ⟨1, _⟩ => rfl)
  have er : ∀ k : Fin 2048, idx_main_v20 (ridx_main_v21 (ix2 i r) k) = ix2 r k := fun k => funext fun a => Fin.ext (by match a with | ⟨0, _⟩ => rfl | ⟨1, _⟩ => rfl)
  have eb : idx_main_v22 (idx_main_v23 (ix2 i r)) = ix1 r := funext fun a => Fin.ext (by match a with | ⟨0, _⟩ => rfl)
  simp only [val_main_v25_apply, val_main_call1_v4_apply, val_main_call1_v3_apply, val_main_cst_3_apply,
    val_main_call1_v2_apply, val_main_call1_v1_apply, val_main_call1_v0_apply, val_main_cst_2_apply,
    val_main_v24_apply, val_main_v21_apply, val_main_v20_apply, val_main_v23_apply, val_main_v22_apply,
    el, er, eb, Ideal.minimumf_def, Ideal.maximumf_def, Ideal.addf_def, Ideal.mulf_def, Ideal.subf_def, Ideal.ofBits_def, ofBits_zero, ofBits_one]
  rw [sum_halves]
  simp only [hid1_lo, hid1_hi]
  rfl

/-! ## The third hidden layer -/

/-- Entry `(i, q)` of the third layer: the 64-term inner product against row `q` of the weights, plus the bias,
    clipped. -/
theorem layer3 (i : Fin 4096) (q : Fin 32) :
    val_main_v31 (F := Ideal) x0 x1 x2 x3 x4 x5 x6 x7 x8 (ix2 i q)
      = hid3 (x2 (ix2 i (0 : Fin 1))) (fun k => ft x0 x3 x4 i k) (fun k => ft x1 x3 x4 i k)
          (fun r k => x5 (ix2 r (lo k))) (fun r k => x5 (ix2 r (hi k))) (fun r => x6 (ix1 r))
          (fun q r => x7 (ix2 q r)) (fun q => x8 (ix1 q)) q := by
  have el : ∀ k : Fin 64, lidx_main_v27 (ix2 i q) k = ix2 i k := fun k => funext fun a => Fin.ext (by match a with | ⟨0, _⟩ => rfl | ⟨1, _⟩ => rfl)
  have er : ∀ k : Fin 64, idx_main_v26 (ridx_main_v27 (ix2 i q) k) = ix2 q k := fun k => funext fun a => Fin.ext (by match a with | ⟨0, _⟩ => rfl | ⟨1, _⟩ => rfl)
  have eb : idx_main_v28 (idx_main_v29 (ix2 i q)) = ix1 q := funext fun a => Fin.ext (by match a with | ⟨0, _⟩ => rfl)
  simp only [val_main_v31_apply, val_main_call2_v4_apply, val_main_call2_v3_apply, val_main_cst_5_apply,
    val_main_call2_v2_apply, val_main_call2_v1_apply, val_main_call2_v0_apply, val_main_cst_4_apply,
    val_main_v30_apply, val_main_v27_apply, val_main_v26_apply, val_main_v29_apply, val_main_v28_apply,
    el, er, eb, layer2, Ideal.minimumf_def, Ideal.maximumf_def, Ideal.addf_def, Ideal.mulf_def, Ideal.subf_def, Ideal.ofBits_def, ofBits_zero, ofBits_one]
  rfl

/-! ## The raw score and its logistic -/

/-- Entry `(i, 0)` of the raw score: the 32-term inner product against the single row of the last weights, plus
    the single bias. -/
theorem raw_at (i : Fin 4096) :
    val_main_v36 (F := Ideal) x0 x1 x2 x3 x4 x5 x6 x7 x8 x9 x10 (ix2 i (0 : Fin 1))
      = rawAt x0 x1 x2 x3 x4 x5 x6 x7 x8 x9 x10 i := by
  have el : ∀ k : Fin 32, lidx_main_v33 (ix2 i (0 : Fin 1)) k = ix2 i k := fun k => funext fun a => Fin.ext (by match a with | ⟨0, _⟩ => rfl | ⟨1, _⟩ => rfl)
  have er : ∀ k : Fin 32, idx_main_v32 (ridx_main_v33 (ix2 i (0 : Fin 1)) k) = ix2 (0 : Fin 1) k := fun k => funext fun a => Fin.ext (by match a with | ⟨0, _⟩ => rfl | ⟨1, _⟩ => rfl)
  have eb : idx_main_v34 (idx_main_v35 (ix2 i (0 : Fin 1))) = ix1 (0 : Fin 1) := funext fun a => Fin.ext (by match a with | ⟨0, _⟩ => rfl)
  simp only [val_main_v36_apply, val_main_v33_apply, val_main_v32_apply, val_main_v35_apply, val_main_v34_apply,
    el, er, eb, layer3, Ideal.addf_def]
  rfl

/-- Entry `(i, 0)` of the second result: `1 / (1 + exp (-raw))`, the logistic of the raw score by definition. -/
theorem sig_at (i : Fin 4096) :
    val_main_v42 (F := Ideal) x0 x1 x2 x3 x4 x5 x6 x7 x8 x9 x10 (ix2 i (0 : Fin 1))
      = sigAt x0 x1 x2 x3 x4 x5 x6 x7 x8 x9 x10 i := by
  simp only [val_main_v42_apply, val_main_v41_apply, val_main_cst_7_apply, val_main_v40_apply, val_main_v39_apply,
    val_main_cst_6_apply, val_main_v38_apply, val_main_v37_apply, raw_at, Ideal.hostDivf_def, Ideal.addf_def,
    Ideal.hostUnary_exp_def, Ideal.hostNegf_def, Ideal.negf_def, Ideal.ofBits_def, ofBits_one]
  rfl

/-! ## The two result arrays -/

/-- The reference's first result is the column of raw scores: a column array is determined by its entries
    `(i, 0)`. -/
theorem ref_raw (x0 x1 : Mat 4096 40960) (x2 : Mat 4096 1) (x3 : Mat 1024 40960) (x4 : Vc 1024) (x5 : Mat 64 2048)
    (x6 : Vc 64) (x7 : Mat 32 64) (x8 : Vc 32) (x9 : Mat 1 32) (x10 : Vc 1) :
    Cert.ReferenceIdeal.Read.val_main_v36 (F := Ideal) x0 x1 x2 x3 x4 x5 x6 x7 x8 x9 x10
      = Cert.Nnue.rawArr x0 x1 x2 x3 x4 x5 x6 x7 x8 x9 x10 :=
  col_ext fun i => (raw_at x0 x1 x2 x3 x4 x5 x6 x7 x8 x9 x10 i).trans (rawArr_apply x0 x1 x2 x3 x4 x5 x6 x7 x8 x9 x10 i 0).symm

/-- The reference's second result is the column of their logistics. -/
theorem ref_sig (x0 x1 : Mat 4096 40960) (x2 : Mat 4096 1) (x3 : Mat 1024 40960) (x4 : Vc 1024) (x5 : Mat 64 2048)
    (x6 : Vc 64) (x7 : Mat 32 64) (x8 : Vc 32) (x9 : Mat 1 32) (x10 : Vc 1) :
    Cert.ReferenceIdeal.Read.val_main_v42 (F := Ideal) x0 x1 x2 x3 x4 x5 x6 x7 x8 x9 x10
      = Cert.Nnue.sigArr x0 x1 x2 x3 x4 x5 x6 x7 x8 x9 x10 :=
  col_ext fun i => (sig_at x0 x1 x2 x3 x4 x5 x6 x7 x8 x9 x10 i).trans (sigArr_apply x0 x1 x2 x3 x4 x5 x6 x7 x8 x9 x10 i 0).symm

end Cert.Nnue.RefValue

end
-- ==== Proof.lean ====
/-
  The claim: the kernel program and the reference compute the same two columns.

  Both programs evaluate one network on 4096 positions: a feature transformer `X · Wᵀ + b` applied to the white and
  to the black feature matrix, the two accumulators mixed by the side to move and clipped to [0, 1], three small affine
  layers (the first two clipped), and the logistic of the final score. The kernel program accumulates each
  feature-transformer product over 80 column tiles and evaluates the head row block by row block, with the first
  layer's 2048-wide contraction as two 1024-wide ones; the reference writes each as one operation on whole arrays. Over
  the extended reals these are regroupings of finite sums, so both end at the columns `Cert.Nnue.sigArr` and
  `Cert.Nnue.rawArr` of the arguments (Proof/Spec.lean): the kernel program by Proof/KernelValue.lean, the reference
  by its run read back stage by stage (Proof/RefValue.lean). The three frames are the runs with the results dropped;
  the idealization rewrote nothing, so `preserves` has nothing to show.
-/
import proofs.«121477_j42820823941279_2_alg».proof.Defs
import proofs.«121477_j42820823941279_2_alg».proof.Proof.Gen.Kernel
import proofs.«121477_j42820823941279_2_alg».proof.Proof.Gen.Kernel.Frame
import proofs.«121477_j42820823941279_2_alg».proof.Proof.Gen.KernelIdeal
import proofs.«121477_j42820823941279_2_alg».proof.Proof.Gen.KernelIdeal.Frame
import proofs.«121477_j42820823941279_2_alg».proof.Proof.Gen.ReferenceIdeal
import proofs.«121477_j42820823941279_2_alg».proof.Proof.Gen.ReferenceIdeal.Read
import proofs.«121477_j42820823941279_2_alg».proof.Proof.Gen.Pre_finite_inputs
import proofs.«121477_j42820823941279_2_alg».proof.Proof.KernelValue
import proofs.«121477_j42820823941279_2_alg».proof.Proof.RefValue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the arguments both programs end with the logistic column and the raw-score column of
    those arguments. -/
theorem algebraic : Cert.algebraic_KernelIdeal_ReferenceIdeal := by
  intro m ρ m' ρ' _ hagree
  refine ⟨fun c => Cert.Nnue.sigArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Nnue.rawArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Result.run m ρ, ?_⟩
  refine (θ_run Cert.ReferenceIdeal.defs _ _).mono (fun _ h c => ?_) (Cert.ReferenceIdeal.Value.run (F := Ideal) m' ρ')
  obtain ⟨h42, h36, hargs⟩ := h c
  obtain ⟨e0, e1, e2, e3, e4, e5, e6, e7, e8, e9, e10⟩ := hagree c
  refine ⟨?_, ?_, hargs⟩
  · refine h42.trans ((Cert.ReferenceIdeal.Read.val_main_v42_eq (F := Ideal) _ _ _ _ _ _ _ _ _ _ _).trans
      ((Cert.Nnue.RefValue.ref_sig _ _ _ _ _ _ _ _ _ _ _).trans ?_))
    rw [e0, e1, e2, e3, e4, e5, e6, e7, e8, e9, e10]
  · refine h36.trans ((Cert.ReferenceIdeal.Read.val_main_v36_eq (F := Ideal) _ _ _ _ _ _ _ _ _ _ _).trans
      ((Cert.Nnue.RefValue.ref_raw _ _ _ _ _ _ _ _ _ _ _).trans ?_))
    rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
